-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S2x1x16384 : Shape := ⟨3, ![2, 1, 16384]⟩
abbrev S2x1x1 : Shape := ⟨3, ![2, 1, 1]⟩
abbrev S256x3 : Shape := ⟨2, ![256, 3]⟩
abbrev S1x1x16384 : Shape := ⟨3, ![1, 1, 16384]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩
abbrev S256x16384 : Shape := ⟨2, ![256, 16384]⟩
abbrev S1 : Shape := ⟨1, ![1]⟩
abbrev S2x16384 : Shape := ⟨2, ![2, 16384]⟩
abbrev S2 : Shape := ⟨1, ![2]⟩

abbrev nBuf : Space → Nat
  | .hbm => 24
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x16384, .f32⟩
  | .hbm, ⟨8, _⟩ => ⟨S2x1x16384, .f32⟩
  | .hbm, ⟨9, _⟩ => ⟨S2x1x1, .f32⟩
  | .hbm, ⟨10, _⟩ => ⟨S2x16384, .f32⟩
  | .hbm, ⟨11, _⟩ => ⟨S2, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S3x16384, .f32⟩
  | .local _ .vmem, ⟨3, _⟩ => ⟨S1x16384, .f32⟩
  | .local _ .vmem, ⟨4, _⟩ => ⟨S1x1x16384, .f32⟩
  | .local _ .vmem, ⟨5, _⟩ => ⟨S1x1x16384, .f32⟩
  | .local _ .vmem, ⟨6, _⟩ => ⟨S1x1x1, .f32⟩
  | .local _ .vmem, ⟨7, _⟩ => ⟨S1x1x1, .f32⟩
  | .local _ .vmem, ⟨8, _⟩ => ⟨S1x16384, .f32⟩
  | .local _ .vmem, ⟨9, _⟩ => ⟨S1x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S16384x3_S3x16384_1_0 : S16384x3.Transposes [1, 0] S3x16384
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  inb_S256x3_S256x3_0_0 : ∀ a, (![0, 0] : Fin 2 → Nat) a + S256x3.size a ≤ S256x3.size a
  h_S256x3 : 0 < S256x3.numel
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  reduces_S256x3_S256 : S256x3.Reduces [1] S256
  shapeCasts_S256_S256x1 : S256.ShapeCasts S256x1
  broadcasts_S256x1_S256x16384 : S256x1.Broadcasts S256x16384
  broadcasts_S1x16384_S256x16384 : S1x16384.Broadcasts S256x16384
  reduces_S256x16384_S256 : S256x16384.Reduces [1] S256
  reduces_S256x1_S1 : S256x1.Reduces [0] S1
  shapeCasts_S1_S1x1 : S1.ShapeCasts S1x1
  reduces_S256x16384_S16384 : S256x16384.Reduces [0] S16384
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  shapeCasts_S1x16384_S1x1x16384 : S1x16384.ShapeCasts S1x1x16384
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x1x16384_S2x16384 : S2x1x16384.ShapeCasts S2x16384
  shapeCasts_S2x1x1_S2 : S2x1x1.ShapeCasts S2
  reducesTo_S2x16384_S16384_d0 : S2x16384.ReducesTo [0] S16384
  reducesTo_S16384_S_d0 : S16384.ReducesTo [0] S_
  reducesTo_S2_S_d0 : S2.ReducesTo [0] S_
  dot_S256x3_S3x16384_S256x16384_1_0_0_1_n_n_wf : DotDims.WF S256x3 S3x16384 S256x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S16384x3.size a
  hwx0_0 : ∀ i : grid0.Coords, EltTy.bits .f32 = 32 ∨ (Rect.block (s := S16384x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16384.size a ≤ S2x1x16384.size a
  hwx0_3 : ∀ i : grid0.Coords, EltTy.bits .f32 = 32 ∨ (Rect.block (s := S2x1x16384) S1x1x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S256x3_S3x16384_S256x16384_1_0_0_1_n_n : DotDims S256x3 S3x16384 S256x16384 where
  lhsContracting := [1]
  rhsContracting := [0]
  lhsNonContracting := [0]
  rhsNonContracting := [1]
  lhsBatch := []
  rhsBatch := []
  wf := dot_S256x3_S3x16384_S256x16384_1_0_0_1_n_n_wf

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1x16384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S3x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d0 : S16384x16384.ReducesTo [0] S16384
  reducesTo_S16384_S_d0 : S16384.ReducesTo [0] S_
  reducesTo_S16384x16384_S16384_d1 : S16384x16384.ReducesTo [1] S16384
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Spec.lean ====
/-
  The Chamfer distance between two clouds of 16384 points in 3-space, as one function of the two coordinate arrays over
  the extended reals.

  For a point p of the first cloud and a point q of the second, the squared distance is expanded as
  |p|² + |q|² − 2 p·q and clamped below at zero (`sq`). The loss is the mean over the second cloud of the distance to the
  nearest point of the first, plus the mean over the first cloud of the distance to the nearest point of the second. The
  square root is taken of the smallest squared distance (`colTerm`, `rowTerm`): the root is monotone on the whole extended
  line, so this is also the smallest of the roots.

  The second half of the file names what a row-blocked evaluation holds on the way: the first cloud is cut into 64 blocks
  of 256 consecutive points, the blocks are visited in order, and two running values are kept and reset at every 32nd
  block — for each point of the second cloud the smallest squared distance to the points seen since the reset (`colAcc`),
  and the sum over the points seen since the reset of their distance to the second cloud (`sumAcc`).
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: 16384 points, 3 coordinates each. -/
abbrev Pts : Shape := ⟨2, ![16384, 3]⟩

/-- The clamped squared distance between point `i` of `A` and point `m` of `B`: max(|a|² + |b|² − 2 a·b, 0). -/
def sq (A B : Pts.Idx → EReal) (i m : Fin 16384) : EReal :=
  max (((∑ k : Fin 3, A (ix2 i k) * A (ix2 i k)) + (∑ k : Fin 3, B (ix2 m k) * B (ix2 m k)))
        - Ideal.ofBits .f32 0x40000000#32 * ∑ k : Fin 3, A (ix2 i k) * B (ix2 m k)) 0

/-- The distance from point `m` of `B` to the nearest point of `A`. -/
def colTerm (A B : Pts.Idx → EReal) (m : Fin 16384) : EReal :=
  Ideal.sqrt (Finset.univ.inf fun i : Fin 16384 => sq A B i m)

/-- The distance from point `i` of `A` to the nearest point of `B`. -/
def rowTerm (A B : Pts.Idx → EReal) (i : Fin 16384) : EReal :=
  Ideal.sqrt (Finset.univ.inf fun m : Fin 16384 => sq A B i m)

/-- The loss: the two means added. (16384 is written as the float it is divided by.) -/
def loss (A B : Pts.Idx → EReal) : EReal :=
  Ideal.div (∑ m : Fin 16384, colTerm A B m) (Ideal.ofBits .f32 0x46800000#32)
    + Ideal.div (∑ i : Fin 16384, rowTerm A B i) (Ideal.ofBits .f32 0x46800000#32)

/-! ## The blocked evaluation -/

/-- Point `r` of block `n` (for `n < 64` this is point `256 n + r`). -/
def row (n : ℕ) (r : Fin 256) : Fin 16384 := ⟨(n * 256 + r.val) % 16384, Nat.mod_lt _ (by norm_num)⟩

theorem row_val {n : ℕ} (hn : n < 64) (r : Fin 256) : (row n r).val = n * 256 + r.val := by
  have := r.isLt
  show (n * 256 + r.val) % 16384 = _
  exact Nat.mod_eq_of_lt (by omega)

/-- For point `m` of `B`, the smallest squared distance to the points of block `n`. -/
def tileCol (A B : Pts.Idx → EReal) (n : ℕ) (m : Fin 16384) : EReal :=
  Finset.univ.inf fun r : Fin 256 => sq A B (row n r) m

/-- The sum over the points of block `n` of their distance to `B`. -/
def tileSum (A B : Pts.Idx → EReal) (n : ℕ) : EReal :=
  ∑ r : Fin 256, rowTerm A B (row n r)

/-- The running smallest squared distance after block `n`, reset (to +∞) before every 32nd block. -/
def colAcc (A B : Pts.Idx → EReal) : ℕ → Fin 16384 → EReal
  | 0, m => min ⊤ (tileCol A B 0 m)
  | n + 1, m => if (n + 1) % 32 = 0 then min ⊤ (tileCol A B (n + 1) m) else min (colAcc A B n m) (tileCol A B (n + 1) m)

/-- The running sum of distances after block `n`, reset (to 0) before every 32nd block. -/
def sumAcc (A B : Pts.Idx → EReal) : ℕ → EReal
  | 0 => 0 + tileSum A B 0
  | n + 1 => if (n + 1) % 32 = 0 then 0 + tileSum A B (n + 1) else sumAcc A B n + tileSum A B (n + 1)

end Cert.Chamfer

end
-- ==== Proof.MinSqrt.lean ====
/-
  The square root on the extended line and smallest values.

  The extended square root sends −∞ and every negative real to −∞, a non-negative real to its root and +∞ to +∞. It is
  monotone on the whole line, so it commutes with the smaller of two values, and, since it fixes +∞, with the smallest
  value of any finite family (the empty family included). A fold of `min` from +∞ over a finite family is that smallest
  value; so folding `min` over the roots is the root of the smallest value.
-/
import proofs.«105436_j49864570306616_2_alg».proof.Proof.Spec

noncomputable section

namespace Cert.Chamfer

open Idealize.ShloMosaic

/-- The float word of +∞ denotes +∞. -/
theorem ofBits_inf : Ideal.ofBits .f32 0x7F800000#32 = (⊤ : EReal) := by
  simp [Ideal.ofBits, Ideal.ieee]

/-- The extended square root is monotone on the whole extended line. -/
theorem sqrt_mono : Monotone Ideal.sqrt := by
  intro x y hxy
  induction x using EReal.rec with
  | bot => simp
  | top =>
    have : y = ⊤ := top_le_iff.mp hxy
    subst this
    exact le_rfl
  | coe a =>
    induction y using EReal.rec with
    | bot => exact absurd hxy (by simp)
    | top => simp
    | coe b =>
      have hab : a ≤ b := EReal.coe_le_coe_iff.mp hxy
      simp only [Ideal.sqrt_coe]
      by_cases ha : a < 0
      · simp [ha]
      · have hb : ¬ b < 0 := fun hb => ha (lt_of_le_of_lt hab hb)
        simp only [ha, hb, if_false]
        exact EReal.coe_le_coe_iff.mpr (Real.sqrt_le_sqrt hab)

/-- The root of the smaller of two values is the smaller of the roots. -/
theorem sqrt_min (x y : EReal) : Ideal.sqrt (min x y) = min (Ideal.sqrt x) (Ideal.sqrt y) :=
  sqrt_mono.map_min

/-- Folding `min` from +∞ over a finite family gives its smallest value. -/
theorem fold_min_eq_inf {ι : Type*} (s : Finset ι) (f : ι → EReal) : s.fold min ⊤ f = s.inf f := by
  classical
  induction s using Finset.induction_on with
  | empty => simp
  | insert a s ha ih => rw [Finset.fold_insert ha, Finset.inf_insert, ih]

/-- The root of the smallest value of a finite family is the smallest of the roots. -/
theorem sqrt_inf {ι : Type*} (s : Finset ι) (f : ι → EReal) :
    Ideal.sqrt (s.inf f) = s.inf fun i => Ideal.sqrt (f i) :=
  Finset.comp_inf_eq_inf_comp Ideal.sqrt sqrt_min Ideal.sqrt_top

/-- Folding `min` from the float +∞ over the roots gives the root of the smallest value. -/
theorem fold_min_sqrt {ι : Type*} (s : Finset ι) (f : ι → EReal) :
    s.fold min (Ideal.ofBits .f32 0x7F800000#32) (fun i => Ideal.sqrt (f i)) = Ideal.sqrt (s.inf f) := by
  rw [ofBits_inf, fold_min_eq_inf, sqrt_inf]

end Cert.Chamfer

end
-- ==== Proof.LibSumIdx1.lean ====
/-
  A rank-1 index is its one coordinate: a sum over every index of a vector of length n is the sum over the coordinate
  a : Fin n of the entry at that coordinate (the rank-1 companion of the library's rank-2 double sum). What a sum of a vector
  over its only axis into a scalar needs, once the sum is read as a sum over all indices.
-/
import Idealize.ShloMosaic.Lib.ValueIdx

namespace Cert.LibSumIdx1

open Idealize.ShloMosaic Idealize.ShloMosaic.ValueIdx

/-- A sum over the indices of a length-n vector is the sum over the coordinate, in any additive commutative monoid. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

end Cert.LibSumIdx1
-- ==== Proof.KernelTail.lean ====
/-
  What the host computes from the two arrays the blocked evaluation leaves.

  The evaluation leaves, for each of its two halves, the running smallest squared distances of the 16384 points of the
  second cloud (an array of shape [2, 1, 16384]) and the running sum of distances (shape [2, 1, 1]). The host drops the
  unit axes, takes for every point the smaller of the two halves' values starting from +∞, takes the root, sums the
  16384 roots from 0 and divides by 16384; it sums the two halves' sums from 0 and divides by 16384; and it adds the two
  quotients. Read at the one index of the scalar result, over the extended reals: a sum into a scalar is the initial
  value plus the sum over every index, a one-axis reduction by `min` is the fold of `min` over that axis's coordinates
  from the initial value, and a reshape that drops a unit axis reads the operand at the index with 0 on that axis.
-/
import proofs.«105436_j49864570306616_2_alg».proof.Proof.Gen.KernelIdeal
import proofs.«105436_j49864570306616_2_alg».proof.Proof.MinSqrt
import proofs.«105436_j49864570306616_2_alg».proof.Proof.LibSumIdx1
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Tail

open Idealize.ShloMosaic Idealize.ShloMosaic.ValueIdx
open Cert.KernelIdeal Cert.KernelIdeal.Facts₀

/-- The host's tail as one function of the two arrays the blocked evaluation leaves: the per-half column minima
    `[2, 1, 16384]` and the per-half sums `[2, 1, 1]`. -/
def tail (O3 : FVec Ideal S2x1x16384 .f32) (O4 : FVec Ideal S2x1x1 .f32) : FVec Ideal S_ .f32 :=
  addf (F := Ideal)
    (Host.divf (F := Ideal)
      (Host.reduceAdd (F := Ideal)
        (Host.sqrt (F := Ideal)
          (Host.reduce (FloatOps.minimumf (F := Ideal))
            (shapeCast S2x16384 O3 shapeCasts_S2x1x16384_S2x16384)
            (constant (F := Ideal) S_ .f32 0x7F800000#32) reducesTo_S2x16384_S16384_d0 h_S_))
        (constant (F := Ideal) S_ .f32 0x00000000#32) reducesTo_S16384_S_d0 h_S_)
      (constant (F := Ideal) S_ .f32 0x46800000#32))
    (Host.divf (F := Ideal)
      (Host.reduceAdd (F := Ideal)
        (shapeCast S2 O4 shapeCasts_S2x1x1_S2)
        (constant (F := Ideal) S_ .f32 0x00000000#32) reducesTo_S2_S_d0 h_S_)
      (constant (F := Ideal) S_ .f32 0x46800000#32))

/-- A `[2, 1, 16384]` array reshaped to `[2, 16384]` reads, at `(c, m)`, the operand at `(c, 0, m)`: the two indices
    have the same row-major position. -/
theorem cast_S2x1x16384 (O3 : FVec Ideal S2x1x16384 .f32) (c : Fin 2) (m : Fin 16384) :
    shapeCast S2x16384 O3 shapeCasts_S2x1x16384_S2x16384 (ix2 c m) = O3 (ix3 c (0 : Fin 1) m) :=
  shapeCast_apply O3 _ _ _ (by
    rw [Shape.rowMajor_val_three, Shape.rowMajor_val_two]
    show (c.val * 1 + 0) * 16384 + m.val = c.val * 16384 + m.val
    omega)

/-- A `[2, 1, 1]` array reshaped to `[2]` reads, at `c`, the operand at `(c, 0, 0)`. -/
theorem cast_S2x1x1 (O4 : FVec Ideal S2x1x1 .f32) (c : Fin 2) :
    shapeCast S2 O4 shapeCasts_S2x1x1_S2 (ix1 c) = O4 (ix3 c (0 : Fin 1) (0 : Fin 1)) :=
  shapeCast_apply O4 _ _ _ (by
    rw [Shape.rowMajor_val_three, Shape.rowMajor_val_one]
    show (c.val * 1 + 0) * 1 + 0 = c.val
    omega)

/-- The host's root of a vector, at an index, is the extended root of the entry. -/
theorem hostSqrt_apply {s : Shape} (x : FVec Ideal s .f32) (i : s.Idx) :
    Host.sqrt (F := Ideal) x i = Ideal.sqrt (x i) := rfl

/-- The host's sum of a length-16384 vector into the scalar, from the zero word: the sum of its entries. -/
theorem reduceAdd_S16384 (x : FVec Ideal S16384 .f32) :
    Host.reduceAdd (F := Ideal) x (constant (F := Ideal) S_ .f32 0x00000000#32) reducesTo_S16384_S_d0 h_S_ ix0
      = ∑ m : Fin 16384, x (ix1 m) := by
  show Ideal.hostReduceAdd reducesTo_S16384_S_d0 x (Ideal.ofBits .f32 0x00000000#32) ix0 = _
  rw [Ideal.hostReduceAdd_total reducesTo_S16384_S_d0 (fun b => b.elim0), Ideal.ofBits_zero_f32, zero_add]
  exact Cert.LibSumIdx1.sum_idx1 x

/-- The host's sum of a length-2 vector into the scalar, from the zero word: the sum of its two entries. -/
theorem reduceAdd_S2 (x : FVec Ideal S2 .f32) :
    Host.reduceAdd (F := Ideal) x (constant (F := Ideal) S_ .f32 0x00000000#32) reducesTo_S2_S_d0 h_S_ ix0
      = ∑ c : Fin 2, x (ix1 c) := by
  show Ideal.hostReduceAdd reducesTo_S2_S_d0 x (Ideal.ofBits .f32 0x00000000#32) ix0 = _
  rw [Ideal.hostReduceAdd_total reducesTo_S2_S_d0 (fun b => b.elim0), Ideal.ofBits_zero_f32, zero_add]
  exact Cert.LibSumIdx1.sum_idx1 x

/-- The host's reduction of a `[2, 16384]` array by `min` over its first axis, from the word of +∞, at column `m`:
    the fold of `min` from +∞ over the two entries of the column. -/
theorem reduceMin_apply (y : FVec Ideal S2x16384 .f32) (m : Fin 16384) :
    Host.reduce (FloatOps.minimumf (F := Ideal)) y (constant (F := Ideal) S_ .f32 0x7F800000#32)
        reducesTo_S2x16384_S16384_d0 h_S_ (ix1 m)
      = (Finset.univ : Finset (Fin 2)).fold min ⊤ (fun c => y (ix2 c m)) := by
  have hR : S2x16384.Reduces [0] S16384 := by decide
  rw [Host.reduce_eq_fold_single _ y _ reducesTo_S2x16384_S16384_d0 hR h_S_ (ix1 m)]
  show (Finset.univ : Finset (Fin 2)).fold min (Ideal.ofBits .f32 0x7F800000#32) (fun c => y (hR.lift (ix1 m) c)) = _
  rw [Cert.Chamfer.ofBits_inf]
  refine congrArg (fun g => (Finset.univ : Finset (Fin 2)).fold min ⊤ g) (funext fun c => congrArg y ?_)
  funext d
  match d with
  | ⟨0, _⟩ => rfl
  | ⟨1, _⟩ => rfl

/-- The tail at the scalar's one index: the mean over the second cloud of the root of the smaller of the two halves'
    minima, plus the sum of the two halves' sums divided by 16384. -/
theorem tail_apply (O3 : FVec Ideal S2x1x16384 .f32) (O4 : FVec Ideal S2x1x1 .f32) :
    tail O3 O4 ValueIdx.ix0
      = Ideal.div (∑ m : Fin 16384, Ideal.sqrt ((Finset.univ : Finset (Fin 2)).fold min ⊤
            (fun c => O3 (ix3 c (0 : Fin 1) m)))) (Ideal.ofBits .f32 0x46800000#32)
        + Ideal.div (∑ c : Fin 2, O4 (ix3 c (0 : Fin 1) (0 : Fin 1))) (Ideal.ofBits .f32 0x46800000#32) := by
  have e1 : Host.reduceAdd (F := Ideal)
        (Host.sqrt (F := Ideal)
          (Host.reduce (FloatOps.minimumf (F := Ideal))
            (shapeCast S2x16384 O3 shapeCasts_S2x1x16384_S2x16384)
            (constant (F := Ideal) S_ .f32 0x7F800000#32) reducesTo_S2x16384_S16384_d0 h_S_))
        (constant (F := Ideal) S_ .f32 0x00000000#32) reducesTo_S16384_S_d0 h_S_ ix0
      = ∑ m : Fin 16384, Ideal.sqrt ((Finset.univ : Finset (Fin 2)).fold min ⊤
          (fun c => O3 (ix3 c (0 : Fin 1) m))) := by
    rw [reduceAdd_S16384]
    refine Finset.sum_congr rfl fun m _ => ?_
    rw [hostSqrt_apply, reduceMin_apply]
    exact congrArg Ideal.sqrt (congrArg (fun g => (Finset.univ : Finset (Fin 2)).fold min ⊤ g)
      (funext fun c => cast_S2x1x16384 O3 c m))
  have e2 : Host.reduceAdd (F := Ideal) (shapeCast S2 O4 shapeCasts_S2x1x1_S2)
        (constant (F := Ideal) S_ .f32 0x00000000#32) reducesTo_S2_S_d0 h_S_ ix0
      = ∑ c : Fin 2, O4 (ix3 c (0 : Fin 1) (0 : Fin 1)) := by
    rw [reduceAdd_S2]
    exact Finset.sum_congr rfl fun c _ => cast_S2x1x1 O4 c
  exact congrArg₂ (fun u v : EReal => Ideal.div u (Ideal.ofBits .f32 0x46800000#32)
    + Ideal.div v (Ideal.ofBits .f32 0x46800000#32)) e1 e2

end Cert.KernelIdeal.Tail

end
-- ==== Proof.KernelRun.lean ====
/-
  From the frame run to a run whose post names the scalar result.

  The frame run says where every buffer ends: each array the blocked evaluation writes at what its write-backs leave,
  every other buffer at what the host operations after the evaluation compute from those arrays. Read at the result
  buffer, those host operations are the tail function of the two arrays the evaluation leaves (the per-half column minima
  and the per-half sums): each operation's result is its function applied to its operands' contents, and the two arrays
  are read where the evaluation left them. The two argument buffers end as they were launched.
-/
import proofs.«105436_j49864570306616_2_alg».proof.Proof.Gen.KernelIdeal.Frame
import proofs.«105436_j49864570306616_2_alg».proof.Proof.KernelTail
import Idealize.ShloMosaic.Lib.StableHlo.Run
import Idealize.ShloMosaic.Lib.Tactic
import Idealize.ShloMosaic.Lib.Pipeline.Frame
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.Sem
open Idealize.ShloMosaic.StableHlo
open Cert.KernelIdeal Cert.KernelIdeal.Gen

/-- What the host operations after the blocked evaluation leave in the result buffer: the tail function of the two
    arrays the evaluation leaves. -/
theorem tail_eq (m : (ℓ : Loc nD τ sig) → Buf (Elt Ideal) ℓ) (c : Dev nD) :
    Pipeline.afterTail₀ cfgs (dats (F := Ideal) m) 0 (V0 m) [hostOps1] c main_v14
      = Cert.KernelIdeal.Tail.tail ((dats m 0 c).arrAt 3 cfg0.N) ((dats m 0 c).arrAt 4 cfg0.N) := by
  unfold Pipeline.afterTail₀
  show StableHlo.after hostOps1 _ (Proc.devRef .tc main_v14) = _
  after_results
  have h3 : Pipeline.withArrays (cfgs 0).spec c (V0 m c) (fun w => (dats m 0 c).arrAt w (cfgs 0).N)
      (Proc.devRef .tc main_v5_0) = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N)
      (Proc.devRef .tc main_v5_1) = (dats m 0 c).arrAt 4 cfg0.N :=
    Pipeline.withArrays_arr spec0 launch0.win.arr_inj c _ _ 4
  rw [h3, h4]
  rfl

/-- Every run ends with the result buffer at the tail function of the two arrays the blocked evaluation leaves, and the
    two argument buffers as launched. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v14)
          = Cert.KernelIdeal.Tail.tail ((dats m 0 c).arrAt 3 cfg0.N) ((dats m 0 c).arrAt 4 cfg0.N)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Run

end
-- ==== Proof.KernelPieces.lean ====
/-
  What one visit of a block of 256 points leaves behind, as the body's arithmetic applied to what it found.

  The body keeps two running values between visits: for each point of the second cloud the smallest squared distance
  seen so far, and the sum so far of the distances of the visited points to the second cloud. On the first visit of a
  run of 32 blocks both are first reset (to +∞ and to 0) and then updated; on the other visits they are updated from what
  the visit before left; on the last visit of the run the two values are, in addition, copied out as the run's results.
  Each lemma below reads one of these four values after a visit as the update (or copy) of the named earlier value.
-/
import proofs.«105436_j49864570306616_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch0_A (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : cond0_0 i) (hc1 : ¬cond0_1 i)
    (x0 : Vec F S256x3 .f32) (x1 : Vec F S3x16384 .f32) (x2 : Vec F S1x16384 .f32) :
    sout0_A_0 c i arg2 harg2 arg3 harg3 arg4 harg4 arg5 harg5 arg6 harg6 arg7 harg7 arg8 harg8 hc0 hc1 x0 x1 x2 = k0_pay7 x0 x1 x2 (k0_pay5 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x16384) hz2, View.readCov_unit_zero (S := S1x16384) _ hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem scratch1_A (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : cond0_0 i) (hc1 : ¬cond0_1 i)
    (x0 : Vec F S256x3 .f32) (x1 : Vec F S3x16384 .f32) (x2 : Vec F S1x16384 .f32) :
    sout0_A_1 c i arg2 harg2 arg3 harg3 arg4 harg4 arg5 harg5 arg6 harg6 arg7 harg7 arg8 harg8 hc0 hc1 x0 x1 x2 = k0_pay1 (k0_pay8 x0 x1 x2 (k0_pay6 (F := F))) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem scratch0_B (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : ¬cond0_0 i) (hc1 : ¬cond0_1 i)
    (x0 : Vec F S256x3 .f32) (x1 : Vec F S3x16384 .f32) (x2 : Vec F S1x16384 .f32) (xs0 : Vec F S1x16384 .f32) (xs1 : Vec F S1x1 .f32) :
    sout0_B_0 c i arg2 harg2 arg3 harg3 arg4 harg4 arg5 harg5 arg6 harg6 arg7 harg7 arg8 harg8 hc0 hc1 x0 x1 x2 xs0 xs1 = k0_pay7 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem scratch1_B (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : ¬cond0_0 i) (hc1 : ¬cond0_1 i)
    (x0 : Vec F S256x3 .f32) (x1 : Vec F S3x16384 .f32) (x2 : Vec F S1x16384 .f32) (xs0 : Vec F S1x16384 .f32) (xs1 : Vec F S1x1 .f32) :
    sout0_B_1 c i arg2 harg2 arg3 harg3 arg4 harg4 arg5 harg5 arg6 harg6 arg7 harg7 arg8 harg8 hc0 hc1 x0 x1 x2 xs0 xs1 = k0_pay1 (k0_pay8 x0 x1 x2 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem scratch0_C (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : ¬cond0_0 i) (hc1 : cond0_1 i)
    (x0 : Vec F S256x3 .f32) (x1 : Vec F S3x16384 .f32) (x2 : Vec F S1x16384 .f32) (xs0 : Vec F S1x16384 .f32) (xs1 : Vec F S1x1 .f32) :
    sout0_C_0 c i arg2 harg2 arg3 harg3 arg4 harg4 arg5 harg5 arg6 harg6 arg7 harg7 arg8 harg8 hc0 hc1 x0 x1 x2 xs0 xs1 = k0_pay7 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem scratch1_C (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : ¬cond0_0 i) (hc1 : cond0_1 i)
    (x0 : Vec F S256x3 .f32) (x1 : Vec F S3x16384 .f32) (x2 : Vec F S1x16384 .f32) (xs0 : Vec F S1x16384 .f32) (xs1 : Vec F S1x1 .f32) :
    sout0_C_1 c i arg2 harg2 arg3 harg3 arg4 harg4 arg5 harg5 arg6 harg6 arg7 harg7 arg8 harg8 hc0 hc1 x0 x1 x2 xs0 xs1 = k0_pay1 (k0_pay8 x0 x1 x2 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem out3_C (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : ¬cond0_0 i) (hc1 : cond0_1 i)
    (x0 : Vec F S256x3 .f32) (x1 : Vec F S3x16384 .f32) (x2 : Vec F S1x16384 .f32) (xs0 : Vec F S1x16384 .f32) (xs1 : Vec F S1x1 .f32) :
    out0_C_3 c i arg2 harg2 arg3 harg3 arg4 harg4 arg5 harg5 arg6 harg6 arg7 harg7 arg8 harg8 hc0 hc1 x0 x1 x2 xs0 xs1 = k0_pay2 (k0_pay7 x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3, View.readCov_unit_zero (S := S1x16384) _ hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

theorem out4_C (c : Dev nD) (i : grid0.Coords) (arg2 : Memref sig .tc .vmem S256x3 .f32) (harg2 : arg2.IsWhole) (arg3 : Memref sig .tc .vmem S3x16384 .f32) (harg3 : arg3.IsWhole) (arg4 : Memref sig .tc .vmem S1x16384 .f32) (harg4 : arg4.IsWhole) (arg5 : Memref sig .tc .vmem S1x1x16384 .f32) (harg5 : arg5.IsWhole) (arg6 : Memref sig .tc .vmem S1x1x1 .f32) (harg6 : arg6.IsWhole) (arg7 : Memref sig .tc .vmem S1x16384 .f32) (harg7 : arg7.IsWhole) (arg8 : Memref sig .tc .vmem S1x1 .f32) (harg8 : arg8.IsWhole) (hc0 : ¬cond0_0 i) (hc1 : cond0_1 i)
    (x0 : Vec F S256x3 .f32) (x1 : Vec F S3x16384 .f32) (x2 : Vec F S1x16384 .f32) (xs0 : Vec F S1x16384 .f32) (xs1 : Vec F S1x1 .f32) :
    out0_C_4 c i arg2 harg2 arg3 harg3 arg4 harg4 arg5 harg5 arg6 harg6 arg7 harg7 arg8 harg8 hc0 hc1 x0 x1 x2 xs0 xs1 = k0_pay3 (k0_pay1 (k0_pay8 x0 x1 x2 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3, View.readCov_unit_zero (S := S1x1) _ hz2]
  simp only [View.readAt_eq_ld, harg2.read_unread, harg3.read_unread, harg4.read_unread, harg7.read_unread, harg8.read_unread,
    View.ld_unit_zero (S := S256x3) hz2, View.ld_unit_zero (S := S3x16384) hz2, View.ld_unit_zero (S := S1x16384) hz2, View.ld_unit_zero (S := S1x1) hz2]

end Cert.KernelIdeal.Pieces
end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The body's arithmetic on one block of 256 points, read entry by entry over the extended reals.

  For a block X of the first cloud (256 rows of 3 coordinates), the transposed second cloud Y (3 rows of 16384) and the
  row n of squared norms of the second cloud, the block of clamped squared distances has at (r, m) the value
  max(|X_r|² + n_m − 2 X_r·Y_m, 0): a three-term sum for the norm, a three-term sum for the product. From it the body
  takes, for every column, the smallest entry (joined to the running column minima by `min`) and, for every row, the root
  of the smallest entry, summed over the rows (added to the running sum). The reductions are folds of `min` from +∞ and
  finite sums; nothing here needs the entries to be finite.
-/
import proofs.«105436_j49864570306616_2_alg».proof.Proof.Gen.KernelIdeal.Skeleton
import proofs.«105436_j49864570306616_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The sum of squares of row `r` of a [256, 3] block. -/
theorem rowsq_apply (x0 : FVec Ideal S256x3 .f32) (r : Fin 256) :
    multiReduction (F := Ideal) .add [1] S256 (mulf x0 x0) 0x00000000#32 reduces_S256x3_S256 (.inl rfl) rfl (ix1 r)
      = ∑ k : Fin 3, x0 (ix2 r k) * x0 (ix2 r k) := by
  refine (Ideal.multiReduction_add_single (mulf x0 x0) 0x00000000#32 reduces_S256x3_S256 (.inl rfl) rfl (ix1 r)).trans ?_
  refine Finset.sum_congr rfl fun k _ => ?_
  have e : reduces_S256x3_S256.lift (ix1 r) k = ix2 r k :=
    funext fun a => Fin.ext (by match a with | ⟨0, _⟩ => rfl | ⟨1, _⟩ => rfl)
  rw [e]; rfl

theorem dot_lhs0 (i : S256x16384.Idx) (q : dot_S256x3_S3x16384_S256x16384_1_0_0_1_n_n.contr.Idx) : (dot_S256x3_S3x16384_S256x16384_1_0_0_1_n_n.lhsIdx i q 0).val = (i 0).val := by
  unfold DotDims.lhsIdx
  rw [dif_neg (show ¬(0 : Fin S256x3.rank) ∈ dot_S256x3_S3x16384_S256x16384_1_0_0_1_n_n.lhsBatch by decide), dif_pos (show (0 : Fin S256x3.rank) ∈ dot_S256x3_S3x16384_S256x16384_1_0_0_1_n_n.lhsNonContracting by decide)]
  rfl
theorem dot_lhs1 (i : S256x16384.Idx) (q : dot_S256x3_S3x16384_S256x16384_1_0_0_1_n_n.contr.Idx) : (dot_S256x3_S3x16384_S256x16384_1_0_0_1_n_n.lhsIdx i q 1).val = (q ⟨0, by decide⟩).val :=
  dot_S256x3_S3x16384_S256x16384_1_0_0_1_n_n.lhsIdx_val_of_single rfl i q
theorem dot_rhs0 (i : S256x16384.Idx) (q : dot_S256x3_S3x16384_S256x16384_1_0_0_1_n_n.contr.Idx) : (dot_S256x3_S3x16384_S256x16384_1_0_0_1_n_n.rhsIdx i q 0).val = (q ⟨0, by decide⟩).val :=
  dot_S256x3_S3x16384_S256x16384_1_0_0_1_n_n.rhsIdx_val_of_single rfl i q
theorem dot_rhs1 (i : S256x16384.Idx) (q : dot_S256x3_S3x16384_S256x16384_1_0_0_1_n_n.contr.Idx) : (dot_S256x3_S3x16384_S256x16384_1_0_0_1_n_n.rhsIdx i q 1).val = (i 1).val := by
  unfold DotDims.rhsIdx
  rw [dif_neg (show ¬(1 : Fin S3x16384.rank) ∈ dot_S256x3_S3x16384_S256x16384_1_0_0_1_n_n.rhsBatch by decide), dif_pos (show (1 : Fin S3x16384.rank) ∈ dot_S256x3_S3x16384_S256x16384_1_0_0_1_n_n.rhsNonContracting by decide)]
  rfl

/-- Entry (r, mm) of the product of a [256, 3] block with a [3, 16384] block: the sum over the three coordinates. -/
theorem dot_apply (x0 : FVec Ideal S256x3 .f32) (x1 : FVec Ideal S3x16384 .f32) (r : Fin 256) (mm : Fin 16384) :
    matmul (F := Ideal) dot_S256x3_S3x16384_S256x16384_1_0_0_1_n_n none x0 x1 (constant S256x16384 .f32 0x00000000#32) (ix2 r mm)
      = ∑ k : Fin 3, x0 (ix2 r k) * x1 (ix2 k mm) := by
  simp only [matmul]
  rw [Ideal.matmul_constant_zero_apply, ← Equiv.sum_comp (ValueIdx.contrEquiv1 dot_S256x3_S3x16384_S256x16384_1_0_0_1_n_n 3 rfl rfl).symm]
  refine Finset.sum_congr rfl fun k _ => ?_
  have hk := ValueIdx.contrEquiv1_symm_val dot_S256x3_S3x16384_S256x16384_1_0_0_1_n_n 3 rfl rfl k
  have el : dot_S256x3_S3x16384_S256x16384_1_0_0_1_n_n.lhsIdx (ix2 r mm) ((ValueIdx.contrEquiv1 dot_S256x3_S3x16384_S256x16384_1_0_0_1_n_n 3 rfl rfl).symm k) = ix2 r k := funext fun a => Fin.ext (by
    match a with
    | ⟨0, _⟩ => exact dot_lhs0 _ _
    | ⟨1, _⟩ => exact (dot_lhs1 _ _).trans hk)
  have er : dot_S256x3_S3x16384_S256x16384_1_0_0_1_n_n.rhsIdx (ix2 r mm) ((ValueIdx.contrEquiv1 dot_S256x3_S3x16384_S256x16384_1_0_0_1_n_n 3 rfl rfl).symm k) = ix2 k mm := funext fun a => Fin.ext (by
    match a with
    | ⟨0, _⟩ => exact (dot_rhs0 _ _).trans hk
    | ⟨1, _⟩ => exact dot_rhs1 _ _)
  rw [el, er]

/-- The smallest entry of column `mm` of a [256, 16384] block, from +∞. -/
theorem colmin_apply (y : FVec Ideal S256x16384 .f32) (mm : Fin 16384) :
    multiReduction (F := Ideal) .minimumf [0] S16384 y 0x7F800000#32 reduces_S256x16384_S16384 (.inl rfl) rfl (ix1 mm)
      = (Finset.univ : Finset (Fin 256)).fold min (Ideal.ofBits .f32 0x7F800000#32) (fun r => y (ix2 r mm)) := by
  refine (multiReduction_minimumf_eq_fold y 0x7F800000#32 reduces_S256x16384_S16384 (.inl rfl) rfl (ix1 mm)).trans ?_
  refine (reduces_S256x16384_S16384.fold_filter_drop_single _ _ y (ix1 mm)).trans ?_
  refine congrArg (Finset.fold _ _ · _) (funext fun r => ?_)
  have e : reduces_S256x16384_S16384.lift (ix1 mm) r = ix2 r mm :=
    funext fun a => Fin.ext (by match a with | ⟨0, _⟩ => rfl | ⟨1, _⟩ => rfl)
  show y _ = _
  rw [e]; rfl

/-- The smallest entry of row `r`. -/
theorem rowmin_apply (y : FVec Ideal S256x16384 .f32) (r : Fin 256) :
    multiReduction (F := Ideal) .minimumf [1] S256 y 0x7F800000#32 reduces_S256x16384_S256 (.inl rfl) rfl (ix1 r)
      = (Finset.univ : Finset (Fin 16384)).fold min (Ideal.ofBits .f32 0x7F800000#32) (fun mm => y (ix2 r mm)) := by
  refine (multiReduction_minimumf_eq_fold y 0x7F800000#32 reduces_S256x16384_S256 (.inl rfl) rfl (ix1 r)).trans ?_
  refine (reduces_S256x16384_S256.fold_filter_drop_single _ _ y (ix1 r)).trans ?_
  refine congrArg (Finset.fold _ _ · _) (funext fun mm => ?_)
  have e : reduces_S256x16384_S256.lift (ix1 r) mm = ix2 r mm :=
    funext fun a => Fin.ext (by match a with | ⟨0, _⟩ => rfl | ⟨1, _⟩ => rfl)
  show y _ = _
  rw [e]; rfl

/-- The sum of a [256, 1] column. -/
theorem colsum_apply (z : FVec Ideal S256x1 .f32) (u : Fin 1) :
    multiReduction (F := Ideal) .add [0] S1 z 0x00000000#32 reduces_S256x1_S1 (.inl rfl) rfl (ix1 u)
      = ∑ r : Fin 256, z (ix2 r (0 : Fin 1)) := by
  refine (Ideal.multiReduction_add_single z 0x00000000#32 reduces_S256x1_S1 (.inl rfl) rfl (ix1 u)).trans ?_
  refine Finset.sum_congr rfl fun r _ => ?_
  have e : reduces_S256x1_S1.lift (ix1 u) r = ix2 r (0 : Fin 1) :=
    funext fun a => Fin.ext (by match a with | ⟨0, _⟩ => rfl | ⟨1, _⟩ => have := u.isLt; show u.val = 0; omega)
  rw [e]; rfl

/-- Entry (r, mm) of the block of clamped squared distances: the block's row `r` against column `mm` of the transposed
    second cloud, whose squared norms come in as the row `x2`. -/
theorem pay4_apply (x0 : FVec Ideal S256x3 .f32) (x1 : FVec Ideal S3x16384 .f32) (x2 : FVec Ideal S1x16384 .f32) (r : Fin 256) (mm : Fin 16384) :
    k0_pay4 (F := Ideal) x0 x1 x2 (ix2 r mm)
      = max (((∑ k : Fin 3, x0 (ix2 r k) * x0 (ix2 r k)) + x2 (ix2 (0 : Fin 1) mm))
          - Ideal.ofBits .f32 0x40000000#32 * ∑ k : Fin 3, x0 (ix2 r k) * x1 (ix2 k mm)) (Ideal.ofBits .f32 0x00000000#32) := by
  unfold k0_pay4
  dsimp only
  rw [shapeCast_self, shapeCast_self]
  show max ((broadcastTo S256x16384 (shapeCast S256x1 _ _) _ (ix2 r mm) + broadcastTo S256x16384 x2 _ (ix2 r mm)) - _ * matmul _ none x0 x1 _ (ix2 r mm)) _ = _
  rw [Cert.LibColumn.broadcastTo_a1_ab_apply, Cert.LibColumn.shapeCast_a_a1_apply, broadcastTo_1b_ab_apply, rowsq_apply, dot_apply]
  rfl

/-- The running column minima after a visit: the earlier value against the block's column minimum. -/
theorem pay7_apply (x0 : FVec Ideal S256x3 .f32) (x1 : FVec Ideal S3x16384 .f32) (x2 v27 : FVec Ideal S1x16384 .f32) (u : Fin 1) (mm : Fin 16384) :
    k0_pay7 (F := Ideal) x0 x1 x2 v27 (ix2 u mm)
      = min (v27 (ix2 u mm)) ((Finset.univ : Finset (Fin 256)).fold min (Ideal.ofBits .f32 0x7F800000#32) (fun r => k0_pay4 (F := Ideal) x0 x1 x2 (ix2 r mm))) := by
  unfold k0_pay7
  dsimp only
  rw [shapeCast_self]
  show min (v27 (ix2 u mm)) (shapeCast S1x16384 _ _ (ix2 u mm)) = _
  rw [shapeCast_a_1a_apply, colmin_apply]

theorem vsqrt_apply {s : Shape} (a : FVec Ideal s .f32) (i : s.Idx) : sqrt a i = Ideal.sqrt (a i) := rfl

/-- The sum over the rows of a [256, 16384] block of the root of the row's smallest entry, as a [1, 1] array. -/
theorem sumsqrt_apply (y : FVec Ideal S256x16384 .f32) (u u' : Fin 1) :
    shapeCast S1x1 (multiReduction (F := Ideal) .add [0] S1 (sqrt (shapeCast S256x1 (multiReduction (F := Ideal) .minimumf [1] S256 y 0x7F800000#32 reduces_S256x16384_S256 (.inl rfl) rfl) shapeCasts_S256_S256x1)) 0x00000000#32 reduces_S256x1_S1 (.inl rfl) rfl) shapeCasts_S1_S1x1 (ix2 u u')
      = ∑ r : Fin 256, Ideal.sqrt ((Finset.univ : Finset (Fin 16384)).fold min (Ideal.ofBits .f32 0x7F800000#32) (fun mm => y (ix2 r mm))) := by
  rw [shapeCast_a_1a_apply, colsum_apply]
  refine Finset.sum_congr rfl fun r _ => ?_
  rw [vsqrt_apply, Cert.LibColumn.shapeCast_a_a1_apply, rowmin_apply]

/-- The running sum after a visit: the earlier value plus the sum over the block's rows of the root of the row minimum. -/
theorem pay8_apply (x0 : FVec Ideal S256x3 .f32) (x1 : FVec Ideal S3x16384 .f32) (x2 : FVec Ideal S1x16384 .f32) (v32 : FVec Ideal S1x1 .f32) (u u' : Fin 1) :
    k0_pay8 (F := Ideal) x0 x1 x2 v32 (ix2 u u')
      = v32 (ix2 u u') + ∑ r : Fin 256, Ideal.sqrt ((Finset.univ : Finset (Fin 16384)).fold min (Ideal.ofBits .f32 0x7F800000#32) (fun mm => k0_pay4 (F := Ideal) x0 x1 x2 (ix2 r mm))) := by
  unfold k0_pay8
  dsimp only
  exact congrArg (v32 (ix2 u u') + ·) (sumsqrt_apply (k0_pay4 (F := Ideal) x0 x1 x2) u u')

theorem pay5_apply (i : S1x16384.Idx) : k0_pay5 (F := Ideal) i = Ideal.ofBits .f32 0x7F800000#32 := by
  unfold k0_pay5
  rw [shapeCast_self]
  rfl

theorem pay6_apply (i : S1x1.Idx) : k0_pay6 (F := Ideal) i = Ideal.ofBits .f32 0x00000000#32 := by
  unfold k0_pay6
  rw [shapeCast_self]
  rfl

theorem pay1_eq (v : FVec Ideal S1x1 .f32) : k0_pay1 (F := Ideal) v = v := by
  unfold k0_pay1
  exact shapeCast_self _ _

/-- The copied-out column minima: entry (0, 0, mm) of the result block is entry (0, mm) of the running value. -/
theorem pay2_apply (v : FVec Ideal S1x16384 .f32) (u u' : Fin 1) (mm : Fin 16384) :
    k0_pay2 (F := Ideal) v (ix3 u u' mm) = v (ix2 u' mm) := by
  unfold k0_pay2
  exact shapeCast_ab_1ab_apply v _ u u' mm

theorem pay3_apply (v : FVec Ideal S1x1 .f32) (u u' u'' : Fin 1) :
    k0_pay3 (F := Ideal) v (ix3 u u' u'') = v (ix2 u' u'') := by
  unfold k0_pay3
  exact shapeCast_ab_1ab_apply v _ u u' u''

end Cert.KernelIdeal.Payload
end
-- ==== Proof.KernelBlocks.lean ====
/-
  What the body is handed at each visit, entry by entry in terms of the two clouds.

  The block of the first cloud visited at point t holds the points 256 t … 256 t + 255. The second cloud reaches the
  body already transposed (3 rows of 16384), together with the row of its squared norms, both computed once before the
  visits; both are handed over whole at every visit. So entry (k, m) of the transposed cloud is coordinate k of point m,
  and entry m of the norm row is the three-term sum of squares of point m (the sum starts from the zero word, which is 0).
-/
import proofs.«105436_j49864570306616_2_alg».proof.Proof.Gen.KernelIdeal.Frame
import proofs.«105436_j49864570306616_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Chamfer

variable (m : (ℓ : Loc nD τ sig) → Buf (Elt Ideal) ℓ) (c : Dev nD)

/-- The first cloud and the second cloud, as the program is launched with them. -/
abbrev cloudA : Pts.Idx → EReal := m ((c : Thread nD τ).loc main_arg0)
abbrev cloudB : Pts.Idx → EReal := m ((c : Thread nD τ).loc main_arg1)

theorem V_v0 : (V m c main_v0 : S3x16384.Idx → EReal)
    = transpose S3x16384 [1, 0] (m ((c : Thread nD τ).loc main_arg1)) transposes_S16384x3_S3x16384_1_0 := by
  show StableHlo.after hostOps0 (fun b => m (c, b)) (Proc.devRef .tc main_v0) = _
  after_results

theorem V_v4 : (V m c main_v4 : S1x16384.Idx → EReal)
    = transpose S1x16384 [1, 0] (broadcastInDim S16384x1 ![0] bcast_S16384_S16384x1_0
        (Host.reduceAdd (F := Ideal) (mulf (m ((c : Thread nD τ).loc main_arg1)) (m ((c : Thread nD τ).loc main_arg1))) (constant (F := Ideal) S_ .f32 0x00000000#32) reducesTo_S16384x3_S16384_d1 h_S_))
        transposes_S16384x1_S1x16384_1_0 := by
  show StableHlo.after hostOps0 (fun b => m (c, b)) (Proc.devRef .tc main_v4) = _
  after_results

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- Row `r` of the block of the first cloud visited at point `t` is point `256 t + r` of the cloud. -/
theorem iblk0_apply (t : Fin cfg0.N) (r : Fin 256) (k : Fin 3) :
    (iblk m c 0 t : S256x3.Idx → EReal) (ix2 r k) = cloudA m c (ix2 (row t.val r) k) := by
  have hN : cfg0.N = 64 := N_0
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 256 + 1 * r.val = (row t.val r).val
    rw [(idx0 t).1, row_val (by have := t.isLt; omega)]; omega
  | ⟨1, _⟩ =>
    show win0_0.index t 1 * 3 + 1 * k.val = k.val
    rw [(idx0 t).2]; omega

/-- The transposed second cloud at (k, mm) is coordinate `k` of point `mm`. -/
theorem V_v0_apply (k : Fin 3) (mm : Fin 16384) :
    (V m c main_v0 : S3x16384.Idx → EReal) (ix2 k mm) = cloudB m c (ix2 mm k) := by
  rw [V_v0]
  exact transpose_ix2_apply _ _ k mm

/-- The row of squared norms of the second cloud at `mm`: the three-term sum of squares of point `mm`. -/
theorem V_v4_apply (u : Fin 1) (mm : Fin 16384) :
    (V m c main_v4 : S1x16384.Idx → EReal) (ix2 u mm) = ∑ k : Fin 3, cloudB m c (ix2 mm k) * cloudB m c (ix2 mm k) := by
  rw [V_v4]
  refine (transpose_ix2_apply _ _ u mm).trans ?_
  refine (broadcastInDim_apply _ bcast_S16384_S16384x1_0 _ (ix2 mm u) (ix1 mm) (fun a => match a with
    | ⟨0, _⟩ => by show mm.val = if (16384 : Nat) = 1 then 0 else mm.val; rw [if_neg (by decide)])).trans ?_
  simp only [Host.reduceAdd, Ideal.hostReduceAdd_def]
  rw [Ideal.hostReduceAdd_single reducesTo_S16384x3_S16384_d1 (by decide)]
  show Ideal.ofBits .f32 0x00000000#32 + _ = _
  rw [Ideal.ofBits_zero_f32, zero_add]
  refine Finset.sum_congr rfl fun k _ => ?_
  have e : (by decide : S16384x3.Reduces [1] S16384).lift (ix1 mm) k = ix2 mm k :=
    funext fun a => Fin.ext (by match a with | ⟨0, _⟩ => rfl | ⟨1, _⟩ => rfl)
  rw [e]; rfl

theorem iblk1_apply (t : Fin cfg0.N) (k : Fin 3) (mm : Fin 16384) :
    (iblk m c 1 t : S3x16384.Idx → EReal) (ix2 k mm) = cloudB m c (ix2 mm k) := by
  unfold iblk
  rw [View.read_apply]
  show V m c main_v0 _ = _
  refine Eq.trans (congrArg (V m c main_v0 : S3x16384.Idx → EReal) (funext fun a => Fin.ext ?_)) (V_v0_apply m c k mm)
  match a with
  | ⟨0, _⟩ =>
    show win0_1.index t 0 * 3 + 1 * k.val = k.val
    rw [(idx1 t).1]; omega
  | ⟨1, _⟩ =>
    show win0_1.index t 1 * 16384 + 1 * mm.val = mm.val
    rw [(idx1 t).2]; omega

theorem iblk2_apply (t : Fin cfg0.N) (u : Fin 1) (mm : Fin 16384) :
    (iblk m c 2 t : S1x16384.Idx → EReal) (ix2 u mm) = ∑ k : Fin 3, cloudB m c (ix2 mm k) * cloudB m c (ix2 mm k) := by
  unfold iblk
  rw [View.read_apply]
  show V m c main_v4 _ = _
  refine Eq.trans (congrArg (V m c main_v4 : S1x16384.Idx → EReal) (funext fun a => Fin.ext ?_)) (V_v4_apply m c u mm)
  match a with
  | ⟨0, _⟩ =>
    show win0_2.index t 0 * 1 + 1 * u.val = u.val
    rw [(idx2 t).1]; omega
  | ⟨1, _⟩ =>
    show win0_2.index t 1 * 16384 + 1 * mm.val = mm.val
    rw [(idx2 t).2]; omega

end Cert.KernelIdeal.Blocks
end
-- ==== Proof.KernelVisits.lean ====
/-
  The two values the body carries from visit to visit, after every visit, in terms of the two clouds.

  A visit at point t handles points 256 t … 256 t + 255 of the first cloud. Its block of clamped squared distances has at
  (r, m) the squared distance between point 256 t + r of the first cloud and point m of the second; the visit joins the
  block's column minima to the carried column minima and adds the block's sum of row distances to the carried sum, after
  resetting both when t is a multiple of 32. By induction on t the carried values are therefore the running minima and
  the running sum of the blocked evaluation; the visits with t ≡ 31 (mod 32) copy them out unchanged.
-/
import proofs.«105436_j49864570306616_2_alg».proof.Proof.KernelPieces
import proofs.«105436_j49864570306616_2_alg».proof.Proof.KernelPayload
import proofs.«105436_j49864570306616_2_alg».proof.Proof.KernelBlocks
import proofs.«105436_j49864570306616_2_alg».proof.Proof.MinSqrt

noncomputable section

open Idealize.ShloMosaic Idealize.ShloMosaic.TcCoe Idealize.SL.Sem Idealize.ShloMosaic.ValueIdx
open Idealize.ShloMosaic.Pipeline (Dat)

namespace Cert.KernelIdeal.Visits

open Cert.KernelIdeal Cert.KernelIdeal.Gen Cert.Chamfer Cert.KernelIdeal.Pieces Cert.KernelIdeal.Payload Cert.KernelIdeal.Blocks

variable (m : (ℓ : Loc nD τ sig) → Buf (Elt Ideal) ℓ) (c : Dev nD)

/-! ## Each visit, as the body's arithmetic on the visited block and the values carried in -/

theorem s0_A (t : Fin cfg0.N) (h0 : t.val % 32 = 0) (h1 : ¬t.val % 32 = 31) :
    (outsAt0 m c t.val t.isLt).2.2.1 = k0_pay7 (F := Ideal) (iblk m c 0 t) (iblk m c 1 t) (iblk m c 2 t) (k0_pay5 (F := Ideal)) := by
  rw [outsAt0_A m c t h0 h1]
  dsimp only
  exact scratch0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem s1_A (t : Fin cfg0.N) (h0 : t.val % 32 = 0) (h1 : ¬t.val % 32 = 31) :
    (outsAt0 m c t.val t.isLt).2.2.2 = k0_pay1 (F := Ideal) (k0_pay8 (F := Ideal) (iblk m c 0 t) (iblk m c 1 t) (iblk m c 2 t) (k0_pay6 (F := Ideal))) := by
  rw [outsAt0_A m c t h0 h1]
  dsimp only
  exact scratch1_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem s0_B (t : Fin cfg0.N) (h0 : ¬t.val % 32 = 0) (h1 : ¬t.val % 32 = 31) :
    (outsAt0 m c t.val t.isLt).2.2.1 = k0_pay7 (F := Ideal) (iblk m c 0 t) (iblk m c 1 t) (iblk m c 2 t) (outsAt0 m c (t.val - 1) (Nat.lt_of_le_of_lt (Nat.sub_le _ _) t.isLt)).2.2.1 := by
  rw [outsAt0_B m c t h0 h1]
  dsimp only
  exact scratch0_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

theorem s1_B (t : Fin cfg0.N) (h0 : ¬t.val % 32 = 0) (h1 : ¬t.val % 32 = 31) :
    (outsAt0 m c t.val t.isLt).2.2.2 = k0_pay1 (F := Ideal) (k0_pay8 (F := Ideal) (iblk m c 0 t) (iblk m c 1 t) (iblk m c 2 t) (outsAt0 m c (t.val - 1) (Nat.lt_of_le_of_lt (Nat.sub_le _ _) t.isLt)).2.2.2) := by
  rw [outsAt0_B m c t h0 h1]
  dsimp only
  exact scratch1_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

theorem s0_C (t : Fin cfg0.N) (h0 : ¬t.val % 32 = 0) (h1 : t.val % 32 = 31) :
    (outsAt0 m c t.val t.isLt).2.2.1 = k0_pay7 (F := Ideal) (iblk m c 0 t) (iblk m c 1 t) (iblk m c 2 t) (outsAt0 m c (t.val - 1) (Nat.lt_of_le_of_lt (Nat.sub_le _ _) t.isLt)).2.2.1 := by
  rw [outsAt0_C m c t h0 h1]
  dsimp only
  exact scratch0_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

theorem s1_C (t : Fin cfg0.N) (h0 : ¬t.val % 32 = 0) (h1 : t.val % 32 = 31) :
    (outsAt0 m c t.val t.isLt).2.2.2 = k0_pay1 (F := Ideal) (k0_pay8 (F := Ideal) (iblk m c 0 t) (iblk m c 1 t) (iblk m c 2 t) (outsAt0 m c (t.val - 1) (Nat.lt_of_le_of_lt (Nat.sub_le _ _) t.isLt)).2.2.2) := by
  rw [outsAt0_C m c t h0 h1]
  dsimp only
  exact scratch1_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

theorem o3_C (t : Fin cfg0.N) (h0 : ¬t.val % 32 = 0) (h1 : t.val % 32 = 31) :
    (outsAt0 m c t.val t.isLt).1 = k0_pay2 (F := Ideal) (k0_pay7 (F := Ideal) (iblk m c 0 t) (iblk m c 1 t) (iblk m c 2 t) (outsAt0 m c (t.val - 1) (Nat.lt_of_le_of_lt (Nat.sub_le _ _) t.isLt)).2.2.1) := by
  rw [outsAt0_C m c t h0 h1]
  dsimp only
  exact out3_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

theorem o4_C (t : Fin cfg0.N) (h0 : ¬t.val % 32 = 0) (h1 : t.val % 32 = 31) :
    (outsAt0 m c t.val t.isLt).2.1 = k0_pay3 (F := Ideal) (k0_pay1 (F := Ideal) (k0_pay8 (F := Ideal) (iblk m c 0 t) (iblk m c 1 t) (iblk m c 2 t) (outsAt0 m c (t.val - 1) (Nat.lt_of_le_of_lt (Nat.sub_le _ _) t.isLt)).2.2.2)) := by
  rw [outsAt0_C m c t h0 h1]
  dsimp only
  exact out4_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## The visited block's arithmetic in terms of the two clouds -/

/-- Entry (r, mm) of the block of clamped squared distances at point `t`: the squared distance between point
    `256 t + r` of the first cloud and point `mm` of the second. -/
theorem tile_apply (t : Fin cfg0.N) (r : Fin 256) (mm : Fin 16384) :
    k0_pay4 (F := Ideal) (iblk m c 0 t) (iblk m c 1 t) (iblk m c 2 t) (ix2 r mm) = sq (cloudA m c) (cloudB m c) (row t.val r) mm := by
  refine (pay4_apply (iblk m c 0 t) (iblk m c 1 t) (iblk m c 2 t) r mm).trans ?_
  unfold Cert.Chamfer.sq
  rw [Ideal.ofBits_zero_f32, iblk2_apply m c t (0 : Fin 1) mm]
  simp only [iblk0_apply m c t, iblk1_apply m c t]

/-- One visit joins the carried column minima with the block's column minima. -/
theorem colstep (t : Fin cfg0.N) (v27 : FVec Ideal S1x16384 .f32) (u : Fin 1) (mm : Fin 16384) :
    k0_pay7 (F := Ideal) (iblk m c 0 t) (iblk m c 1 t) (iblk m c 2 t) v27 (ix2 u mm) = min (v27 (ix2 u mm)) (tileCol (cloudA m c) (cloudB m c) t.val mm) := by
  refine (pay7_apply (iblk m c 0 t) (iblk m c 1 t) (iblk m c 2 t) v27 u mm).trans ?_
  rw [ofBits_inf, fold_min_eq_inf]
  unfold tileCol
  simp only [tile_apply m c t]

/-- One visit adds the block's sum of distances to the carried sum. -/
theorem sumstep (t : Fin cfg0.N) (v32 : FVec Ideal S1x1 .f32) (u u' : Fin 1) :
    k0_pay8 (F := Ideal) (iblk m c 0 t) (iblk m c 1 t) (iblk m c 2 t) v32 (ix2 u u') = v32 (ix2 u u') + tileSum (cloudA m c) (cloudB m c) t.val := by
  refine (pay8_apply (iblk m c 0 t) (iblk m c 1 t) (iblk m c 2 t) v32 u u').trans ?_
  unfold tileSum rowTerm
  simp only [ofBits_inf, fold_min_eq_inf, tile_apply m c t]

/-! ## The two carried values after every visit -/

/-- After the visit at point `n` the two carried values are the running column minima and the running sum of the
    blocked evaluation: by induction on the point, the three kinds of visit by the point's residue modulo 32. -/
theorem carried : ∀ (n : ℕ) (h : n < cfg0.N),
    (∀ (u : Fin 1) (mm : Fin 16384), (outsAt0 m c n h).2.2.1 (ix2 u mm) = colAcc (cloudA m c) (cloudB m c) n mm)
    ∧ (∀ u u' : Fin 1, (outsAt0 m c n h).2.2.2 (ix2 u u') = sumAcc (cloudA m c) (cloudB m c) n)
  | 0, h => by
    have h0 : (⟨0, h⟩ : Fin cfg0.N).val % 32 = 0 := rfl
    have h1 : ¬(⟨0, h⟩ : Fin cfg0.N).val % 32 = 31 := by show ¬(0 % 32 = 31); decide
    constructor
    · intro u mm
      refine (congrFun (s0_A m c ⟨0, h⟩ h0 h1) (ix2 u mm)).trans ?_
      refine (colstep m c ⟨0, h⟩ _ u mm).trans ?_
      rw [pay5_apply, ofBits_inf]
      rfl
    · intro u u'
      refine (congrFun (s1_A m c ⟨0, h⟩ h0 h1) (ix2 u u')).trans ?_
      rw [pay1_eq]
      refine (sumstep m c ⟨0, h⟩ _ u u').trans ?_
      rw [pay6_apply, Ideal.ofBits_zero_f32]
      rfl
  | n + 1, h => by
    have ih := carried n (Nat.lt_of_succ_lt h)
    by_cases h0 : (n + 1) % 32 = 0
    · have h1 : ¬(n + 1) % 32 = 31 := by omega
      constructor
      · intro u mm
        refine (congrFun (s0_A m c ⟨n + 1, h⟩ h0 h1) (ix2 u mm)).trans ?_
        refine (colstep m c ⟨n + 1, h⟩ _ u mm).trans ?_
        rw [pay5_apply, ofBits_inf, colAcc, if_pos h0]
      · intro u u'
        refine (congrFun (s1_A m c ⟨n + 1, h⟩ h0 h1) (ix2 u u')).trans ?_
        rw [pay1_eq]
        refine (sumstep m c ⟨n + 1, h⟩ _ u u').trans ?_
        rw [pay6_apply, Ideal.ofBits_zero_f32, sumAcc, if_pos h0]
    · by_cases h1 : (n + 1) % 32 = 31
      · constructor
        · intro u mm
          refine (congrFun (s0_C m c ⟨n + 1, h⟩ h0 h1) (ix2 u mm)).trans ?_
          refine (colstep m c ⟨n + 1, h⟩ _ u mm).trans ?_
          rw [colAcc, if_neg h0]
          exact congrArg (min · _) (ih.1 u mm)
        · intro u u'
          refine (congrFun (s1_C m c ⟨n + 1, h⟩ h0 h1) (ix2 u u')).trans ?_
          rw [pay1_eq]
          refine (sumstep m c ⟨n + 1, h⟩ _ u u').trans ?_
          rw [sumAcc, if_neg h0]
          exact congrArg (· + _) (ih.2 u u')
      · constructor
        · intro u mm
          refine (congrFun (s0_B m c ⟨n + 1, h⟩ h0 h1) (ix2 u mm)).trans ?_
          refine (colstep m c ⟨n + 1, h⟩ _ u mm).trans ?_
          rw [colAcc, if_neg h0]
          exact congrArg (min · _) (ih.1 u mm)
        · intro u u'
          refine (congrFun (s1_B m c ⟨n + 1, h⟩ h0 h1) (ix2 u u')).trans ?_
          rw [pay1_eq]
          refine (sumstep m c ⟨n + 1, h⟩ _ u u').trans ?_
          rw [sumAcc, if_neg h0]
          exact congrArg (· + _) (ih.2 u u')

/-! ## What the last visit of a run copies out -/

theorem out3_last (t : Fin cfg0.N) (h31 : t.val % 32 = 31) (u u' : Fin 1) (mm : Fin 16384) :
    (outsAt0 m c t.val t.isLt).1 (ix3 u u' mm) = colAcc (cloudA m c) (cloudB m c) t.val mm := by
  have h0 : ¬t.val % 32 = 0 := by omega
  have e : (outsAt0 m c t.val t.isLt).1 = k0_pay2 (F := Ideal) (outsAt0 m c t.val t.isLt).2.2.1 :=
    (o3_C m c t h0 h31).trans (congrArg (k0_pay2 (F := Ideal)) (s0_C m c t h0 h31).symm)
  refine (congrFun e (ix3 u u' mm)).trans ?_
  refine (pay2_apply _ u u' mm).trans ?_
  exact (carried m c t.val t.isLt).1 u' mm

theorem out4_last (t : Fin cfg0.N) (h31 : t.val % 32 = 31) (u u' u'' : Fin 1) :
    (outsAt0 m c t.val t.isLt).2.1 (ix3 u u' u'') = sumAcc (cloudA m c) (cloudB m c) t.val := by
  have h0 : ¬t.val % 32 = 0 := by omega
  have e : (outsAt0 m c t.val t.isLt).2.1 = k0_pay3 (F := Ideal) (outsAt0 m c t.val t.isLt).2.2.2 :=
    (o4_C m c t h0 h31).trans (congrArg (k0_pay3 (F := Ideal)) (s1_C m c t h0 h31).symm)
  refine (congrFun e (ix3 u u' u'')).trans ?_
  refine (pay3_apply _ u u' u'').trans ?_
  exact (carried m c t.val t.isLt).2 u' u''

end Cert.KernelIdeal.Visits
end
-- ==== Proof.KernelFlush.lean ====
/-
  From the staging buffers to the result arrays.

  The kernel runs on a grid of 2 × 32 points; point t has coordinates (t / 32, t % 32). Each of its two results is an
  array of two blocks, one per value of the first coordinate: the first result [2, 1, 16384] in blocks [1, 1, 16384], the
  second [2, 1, 1] in blocks [1, 1, 1]. The block of point t is block t / 32 of its array, and a block is copied from
  its staging buffer into the array exactly at the points with t % 32 = 31: point 31 writes block 0, point 63 writes
  block 1. The two blocks are disjoint and together they are the whole array.

  So if, at each of those two points, the staging buffer holds g (t / 32) — a row of 16384 numbers for the first
  result, one number for the second — then after the run entry (cc, 0, mm) of the first array is g cc mm, and entry
  (cc, 0, 0) of the second is g cc. What the staging buffers hold at those points is a hypothesis here.
-/
import proofs.«105436_j49864570306616_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Flush

open Cert.KernelIdeal Cert.KernelIdeal.Gen Idealize.ShloMosaic Idealize.ShloMosaic.ValueIdx Idealize.ShloMosaic.TcCoe
  Idealize.SL.Sem
open Idealize.ShloMosaic.Pipeline (Dat)

variable (m : (ℓ : Loc nD τ sig) → Buf (Elt Ideal) ℓ) (c : Dev nD)

/-! ## The block of a point -/

/-- A point lies in one of the two halves of the grid. -/
theorem half_lt (t : Fin cfg0.N) : t.val / 32 < 2 := by
  have := t.isLt; have : cfg0.N = 64 := N_0; omega

/-- The block index of the first result at point t is (t / 32, 0, 0). -/
theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-! ## The first result: a row of 16384 numbers per half -/

/-- The whole first result array as a function of its index: entry (cc, 0, mm) is entry mm of the row of half cc. -/
abbrev G3 (g3 : Fin 2 → Fin 16384 → EReal) : S2x1x16384.Idx → EReal := fun i => g3 (i 0) (i 2)

/-- At a point that writes the first result back, what it writes is that point's block of the whole-array function:
    the block has one row, the row of half t / 32, and its entry y sits in the array at (t / 32, 0, y). -/
theorem flushed3_eq (g3 : Fin 2 → Fin 16384 → EReal)
    (h3 : ∀ (t : Fin cfg0.N), t.val % 32 = 31 → ∀ mm : Fin 16384,
      (outsAt0 m c t.val t.isLt).1 (ix3 (0 : Fin 1) (0 : Fin 1) mm) = g3 ⟨t.val / 32, half_lt t⟩ mm)
    (t : Fin cfg0.N) (hf : (cfg0.win 3).flush t = true) :
    (dats m 0 c).flushed 3 t = ((cfg0.win 3).blk t).view.read (Elt Ideal) (G3 g3) := by
  have h31 : t.val % 32 = 31 := (flush0_3 t).mp hf
  obtain ⟨e0, e1, e2⟩ := idx3 t
  show (cfg0.win 3).cut (grid0.coords t) ((dats m 0 c).after 3 t) = _
  rw [after0_3]
  funext y
  rw [View.read_apply]
  have hy0 : (y 0).val = 0 := by have : (y 0).val < 1 := (y 0).isLt; omega
  have hy1 : (y 1).val = 0 := by have : (y 1).val < 1 := (y 1).isLt; omega
  have hy2 : (y 2).val < 16384 := (y 2).isLt
  have hx : (cfg0.win 3).xinj (grid0.coords t) y = ix3 (0 : Fin 1) (0 : Fin 1) (⟨(y 2).val, hy2⟩ : Fin 16384) :=
    funext fun a => Fin.ext (by
      match a with
      | ⟨0, _⟩ => exact hy0
      | ⟨1, _⟩ => exact hy1
      | ⟨2, _⟩ => rfl)
  have ha : (((cfg0.win 3).blk t).view.emb y) 0 = (⟨t.val / 32, half_lt t⟩ : Fin 2) := Fin.ext (by
    show win0_3.index t (0 : Fin 3) * 1 + 1 * (y 0).val = t.val / 32
    omega)
  have hb : (((cfg0.win 3).blk t).view.emb y) 2 = (⟨(y 2).val, hy2⟩ : Fin 16384) := Fin.ext (by
    show win0_3.index t (2 : Fin 3) * 16384 + 1 * (y 2).val = (y 2).val
    omega)
  show (outsAt0 m c t.val t.isLt).1 ((cfg0.win 3).xinj (grid0.coords t) y)
    = g3 ((((cfg0.win 3).blk t).view.emb y) 0) ((((cfg0.win 3).blk t).view.emb y) 2)
  rw [hx, ha, hb]
  exact h3 t h31 _

/-- The two written blocks cover the first result array (index (cc, 0, mm) is in the block of point 32 cc + 31), so
    after the run the array is the whole-array function. -/
theorem arr3 (g3 : Fin 2 → Fin 16384 → EReal)
    (h3 : ∀ (t : Fin cfg0.N), t.val % 32 = 31 → ∀ mm : Fin 16384,
      (outsAt0 m c t.val t.isLt).1 (ix3 (0 : Fin 1) (0 : Fin 1) mm) = g3 ⟨t.val / 32, half_lt t⟩ mm) :
    (dats m 0 c).arrAt 3 cfg0.N = G3 g3 :=
  (dats m 0 c).arrAt_eq_of_cover 3 (G3 g3) (flushed3_eq m c g3 h3) fun i => by
    have hi0 : (i 0).val < 2 := (i 0).isLt
    have hi1 : (i 1).val < 1 := (i 1).isLt
    have hi2 : (i 2).val < 16384 := (i 2).isLt
    have hN : cfg0.N = 64 := N_0
    have hlt : 32 * (i 0).val + 31 < cfg0.N := by omega
    obtain ⟨e0, e1, e2⟩ := idx3 ⟨32 * (i 0).val + 31, hlt⟩
    refine ⟨⟨32 * (i 0).val + 31, hlt⟩, (flush0_3 _).mpr (by show (32 * (i 0).val + 31) % 32 = 31; omega), ?_⟩
    show i ∈ ((View.whole main_v5_0).slice (win0_3.rect ⟨32 * (i 0).val + 31, hlt⟩)).set
    rw [View.set_slice_whole, Rect.mem_set_unit]
    have e0' : win0_3.index ⟨32 * (i 0).val + 31, hlt⟩ (0 : Fin 3) = (32 * (i 0).val + 31) / 32 := e0
    intro a
    match a with
    | ⟨0, _⟩ =>
      show win0_3.index ⟨32 * (i 0).val + 31, hlt⟩ (0 : Fin 3) * 1 ≤ (i 0).val
        ∧ (i 0).val < win0_3.index ⟨32 * (i 0).val + 31, hlt⟩ (0 : Fin 3) * 1 + 1
      omega
    | ⟨1, _⟩ =>
      show win0_3.index ⟨32 * (i 0).val + 31, hlt⟩ (1 : Fin 3) * 1 ≤ (i 1).val
        ∧ (i 1).val < win0_3.index ⟨32 * (i 0).val + 31, hlt⟩ (1 : Fin 3) * 1 + 1
      omega
    | ⟨2, _⟩ =>
      show win0_3.index ⟨32 * (i 0).val + 31, hlt⟩ (2 : Fin 3) * 16384 ≤ (i 2).val
        ∧ (i 2).val < win0_3.index ⟨32 * (i 0).val + 31, hlt⟩ (2 : Fin 3) * 16384 + 16384
      omega

/-- Entry by entry: after the run, entry (cc, 0, mm) of the first result is entry mm of the row of half cc. -/
theorem arr3_eq (g3 : Fin 2 → Fin 16384 → EReal)
    (h3 : ∀ (t : Fin cfg0.N), t.val % 32 = 31 → ∀ mm : Fin 16384,
      (outsAt0 m c t.val t.isLt).1 (ix3 (0 : Fin 1) (0 : Fin 1) mm) = g3 ⟨t.val / 32, half_lt t⟩ mm) :
    ∀ (cc : Fin 2) (mm : Fin 16384), (dats m 0 c).arrAt 3 cfg0.N (ix3 cc (0 : Fin 1) mm) = g3 cc mm :=
  fun cc mm => congrFun (arr3 m c g3 h3) (ix3 cc (0 : Fin 1) mm)

/-! ## The second result: one number per core -/

/-- The block index of the second result at point t is (t / 32, 0, 0). -/
theorem idx4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- The whole second result array as a function of its index: entry (cc, 0, 0) is the number of half cc. -/
abbrev G4 (g4 : Fin 2 → EReal) : S2x1x1.Idx → EReal := fun i => g4 (i 0)

/-- At a point that writes the second result back, what it writes is that point's block of the whole-array function:
    the one number of half t / 32, at (t / 32, 0, 0) in the array. -/
theorem flushed4_eq (g4 : Fin 2 → EReal)
    (h4 : ∀ (t : Fin cfg0.N), t.val % 32 = 31 →
      (outsAt0 m c t.val t.isLt).2.1 (ix3 (0 : Fin 1) (0 : Fin 1) (0 : Fin 1)) = g4 ⟨t.val / 32, half_lt t⟩)
    (t : Fin cfg0.N) (hf : (cfg0.win 4).flush t = true) :
    (dats m 0 c).flushed 4 t = ((cfg0.win 4).blk t).view.read (Elt Ideal) (G4 g4) := by
  have h31 : t.val % 32 = 31 := (flush0_4 t).mp hf
  obtain ⟨e0, e1, e2⟩ := idx4 t
  show (cfg0.win 4).cut (grid0.coords t) ((dats m 0 c).after 4 t) = _
  rw [after0_4]
  funext y
  rw [View.read_apply]
  have hy0 : (y 0).val = 0 := by have : (y 0).val < 1 := (y 0).isLt; omega
  have hy1 : (y 1).val = 0 := by have : (y 1).val < 1 := (y 1).isLt; omega
  have hy2 : (y 2).val = 0 := by have : (y 2).val < 1 := (y 2).isLt; omega
  have hx : (cfg0.win 4).xinj (grid0.coords t) y = ix3 (0 : Fin 1) (0 : Fin 1) (0 : Fin 1) :=
    funext fun a => Fin.ext (by
      match a with
      | ⟨0, _⟩ => exact hy0
      | ⟨1, _⟩ => exact hy1
      | ⟨2, _⟩ => exact hy2)
  have ha : (((cfg0.win 4).blk t).view.emb y) 0 = (⟨t.val / 32, half_lt t⟩ : Fin 2) := Fin.ext (by
    show win0_4.index t (0 : Fin 3) * 1 + 1 * (y 0).val = t.val / 32
    omega)
  show (outsAt0 m c t.val t.isLt).2.1 ((cfg0.win 4).xinj (grid0.coords t) y)
    = g4 ((((cfg0.win 4).blk t).view.emb y) 0)
  rw [hx, ha]
  exact h4 t h31

/-- The two written blocks cover the second result array, so after the run it is the whole-array function. -/
theorem arr4 (g4 : Fin 2 → EReal)
    (h4 : ∀ (t : Fin cfg0.N), t.val % 32 = 31 →
      (outsAt0 m c t.val t.isLt).2.1 (ix3 (0 : Fin 1) (0 : Fin 1) (0 : Fin 1)) = g4 ⟨t.val / 32, half_lt t⟩) :
    (dats m 0 c).arrAt 4 cfg0.N = G4 g4 :=
  (dats m 0 c).arrAt_eq_of_cover 4 (G4 g4) (flushed4_eq m c g4 h4) fun i => by
    have hi0 : (i 0).val < 2 := (i 0).isLt
    have hi1 : (i 1).val < 1 := (i 1).isLt
    have hi2 : (i 2).val < 1 := (i 2).isLt
    have hN : cfg0.N = 64 := N_0
    have hlt : 32 * (i 0).val + 31 < cfg0.N := by omega
    obtain ⟨e0, e1, e2⟩ := idx4 ⟨32 * (i 0).val + 31, hlt⟩
    refine ⟨⟨32 * (i 0).val + 31, hlt⟩, (flush0_4 _).mpr (by show (32 * (i 0).val + 31) % 32 = 31; omega), ?_⟩
    show i ∈ ((View.whole main_v5_1).slice (win0_4.rect ⟨32 * (i 0).val + 31, hlt⟩)).set
    rw [View.set_slice_whole, Rect.mem_set_unit]
    have e0' : win0_4.index ⟨32 * (i 0).val + 31, hlt⟩ (0 : Fin 3) = (32 * (i 0).val + 31) / 32 := e0
    intro a
    match a with
    | ⟨0, _⟩ =>
      show win0_4.index ⟨32 * (i 0).val + 31, hlt⟩ (0 : Fin 3) * 1 ≤ (i 0).val
        ∧ (i 0).val < win0_4.index ⟨32 * (i 0).val + 31, hlt⟩ (0 : Fin 3) * 1 + 1
      omega
    | ⟨1, _⟩ =>
      show win0_4.index ⟨32 * (i 0).val + 31, hlt⟩ (1 : Fin 3) * 1 ≤ (i 1).val
        ∧ (i 1).val < win0_4.index ⟨32 * (i 0).val + 31, hlt⟩ (1 : Fin 3) * 1 + 1
      omega
    | ⟨2, _⟩ =>
      show win0_4.index ⟨32 * (i 0).val + 31, hlt⟩ (2 : Fin 3) * 1 ≤ (i 2).val
        ∧ (i 2).val < win0_4.index ⟨32 * (i 0).val + 31, hlt⟩ (2 : Fin 3) * 1 + 1
      omega

/-- Entry by entry: after the run, entry (cc, 0, 0) of the second result is the number of half cc. -/
theorem arr4_eq (g4 : Fin 2 → EReal)
    (h4 : ∀ (t : Fin cfg0.N), t.val % 32 = 31 →
      (outsAt0 m c t.val t.isLt).2.1 (ix3 (0 : Fin 1) (0 : Fin 1) (0 : Fin 1)) = g4 ⟨t.val / 32, half_lt t⟩) :
    ∀ cc : Fin 2, (dats m 0 c).arrAt 4 cfg0.N (ix3 cc (0 : Fin 1) (0 : Fin 1)) = g4 cc :=
  fun cc => congrFun (arr4 m c g4 h4) (ix3 cc (0 : Fin 1) (0 : Fin 1))

end Cert.KernelIdeal.Flush

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.Accum.lean ====
/-
  What the two running values of the row-blocked evaluation hold at the end of each half.

  The 64 blocks are visited in order and both running values are reset before blocks 0 and 32, so after block
  32c + 31 (c = 0, 1) they hold what the blocks 32c … 32c + 31 contributed.

  For the running smallest squared distance this is stated by its universal property: a value lies below `colAcc n m`
  exactly when it lies below the squared distance from `m` to every point of every block since the last reset. The
  smaller of the two half results therefore lies above exactly the lower bounds of all 16384 squared distances, every
  point being point `i % 256` of block `i / 256`; so it is their smallest value.

  For the running sum, the accumulator over one half is the sum of the 32 block sums, a block sum is a sum over the 256
  points of the block, and a sum over 16384 = 64 · 256 = 2 · 32 · 256 points is the iterated sum over halves, blocks and
  points.
-/
import proofs.«105436_j49864570306616_2_alg».proof.Proof.MinSqrt
import proofs.«105436_j49864570306616_2_alg».proof.Proof.LibBlockSumN
import proofs.«105436_j49864570306616_2_alg».proof.Proof.LibBlockFold

noncomputable section

namespace Cert.Chamfer

open Idealize.ShloMosaic Idealize.ShloMosaic.ValueIdx

/-! ## The running smallest squared distance -/

/-- A value lies below the block minimum exactly when it lies below every squared distance of the block. -/
theorem le_tileCol_iff (A B : Pts.Idx → EReal) (n : ℕ) (m : Fin 16384) (y : EReal) :
    y ≤ tileCol A B n m ↔ ∀ r : Fin 256, y ≤ sq A B (row n r) m := by
  rw [tileCol, Finset.le_inf_iff]
  exact ⟨fun h r => h r (Finset.mem_univ r), fun h r _ => h r⟩

/-- A value lies below the running minimum after block `n` exactly when it lies below the squared distance to every
    point of the blocks `n - n % 32, …, n`, the blocks visited since the last reset. -/
theorem le_colAcc_iff (A B : Pts.Idx → EReal) (m : Fin 16384) (y : EReal) : ∀ n : ℕ,
    (y ≤ colAcc A B n m ↔ ∀ j, j ≤ n % 32 → ∀ r : Fin 256, y ≤ sq A B (row (n - n % 32 + j) r) m)
  | 0 => by
    rw [colAcc, le_min_iff, le_tileCol_iff]
    constructor
    · rintro ⟨_, h⟩ j hj r
      have e : 0 - 0 % 32 + j = 0 := by omega
      rw [e]
      exact h r
    · intro h
      refine ⟨le_top, fun r => ?_⟩
      have h0 := h 0 (Nat.zero_le _) r
      have e : 0 - 0 % 32 + 0 = 0 := by omega
      rwa [e] at h0
  | n + 1 => by
    rw [colAcc]
    by_cases hz : (n + 1) % 32 = 0
    · rw [if_pos hz, le_min_iff, le_tileCol_iff, hz]
      constructor
      · rintro ⟨_, h⟩ j hj r
        have e : n + 1 - 0 + j = n + 1 := by omega
        rw [e]
        exact h r
      · intro h
        refine ⟨le_top, fun r => ?_⟩
        have h0 := h 0 (Nat.le_refl _) r
        have e : n + 1 - 0 + 0 = n + 1 := by omega
        rwa [e] at h0
    · rw [if_neg hz, le_min_iff, le_tileCol_iff, le_colAcc_iff A B m y n]
      have e1 : (n + 1) % 32 = n % 32 + 1 := by omega
      have e2 : n + 1 - (n % 32 + 1) = n - n % 32 := by omega
      rw [e1, e2]
      constructor
      · rintro ⟨h1, h2⟩ j hj r
        by_cases hj' : j ≤ n % 32
        · exact h1 j hj' r
        · have e : n - n % 32 + j = n + 1 := by omega
          rw [e]
          exact h2 r
      · intro h
        refine ⟨fun j hj r => h j (by omega) r, fun r => ?_⟩
        have h0 := h (n % 32 + 1) (Nat.le_refl _) r
        have e : n - n % 32 + (n % 32 + 1) = n + 1 := by omega
        rwa [e] at h0

/-- The smaller of the two half results is the smallest of all 16384 squared distances to point `m`. -/
theorem col_total (A B : Pts.Idx → EReal) (m : Fin 16384) :
    (Finset.univ : Finset (Fin 2)).fold min ⊤ (fun c => colAcc A B (32 * c.val + 31) m)
      = Finset.univ.inf fun i : Fin 16384 => sq A B i m := by
  rw [fold_min_eq_inf]
  refine eq_of_forall_le_iff fun y => ?_
  rw [Finset.le_inf_iff, Finset.le_inf_iff]
  constructor
  · intro h i _
    have hi := i.isLt
    have hc : i.val / 8192 < 2 := by omega
    have hr : i.val % 256 < 256 := by omega
    have h1 := (le_colAcc_iff A B m y (32 * (i.val / 8192) + 31)).mp
      (h ⟨i.val / 8192, hc⟩ (Finset.mem_univ _)) ((i.val / 256) % 32) (by omega) ⟨i.val % 256, hr⟩
    have e : row (32 * (i.val / 8192) + 31 - (32 * (i.val / 8192) + 31) % 32 + (i.val / 256) % 32)
        ⟨i.val % 256, hr⟩ = i := by
      apply Fin.ext
      rw [row_val (by omega)]
      show (32 * (i.val / 8192) + 31 - (32 * (i.val / 8192) + 31) % 32 + (i.val / 256) % 32) * 256
        + i.val % 256 = i.val
      omega
    rwa [e] at h1
  · intro h c _
    rw [le_colAcc_iff]
    intro j _ r
    exact h _ (Finset.mem_univ _)

/-! ## The running sum of distances -/

/-- At a reset block the running sum is that block's sum alone. -/
theorem sumAcc_reset (A B : Pts.Idx → EReal) : ∀ n : ℕ, n % 32 = 0 → sumAcc A B n = 0 + tileSum A B n
  | 0, _ => by rw [sumAcc]
  | n + 1, h => by rw [sumAcc, if_pos h]

/-- At every other block the running sum grows by that block's sum. -/
theorem sumAcc_step (A B : Pts.Idx → EReal) (n : ℕ) (h : (n + 1) % 32 ≠ 0) :
    sumAcc A B (n + 1) = sumAcc A B n + tileSum A B (n + 1) := by
  rw [sumAcc, if_neg h]

/-- After the last block of a half the running sum is the sum of the half's 32 block sums. -/
theorem sumAcc_block (A B : Pts.Idx → EReal) (c : ℕ) :
    sumAcc A B (32 * c + 31) = ∑ s : Fin 32, tileSum A B (32 * c + s.val) := by
  have h := Cert.BlockFold.fold_blocks 32 (sumAcc A B) (tileSum A B) (32 * c)
    (sumAcc_reset A B _ (by omega)) (fun s _ => sumAcc_step A B (32 * c + s) (by omega)) 31 (by norm_num)
  rw [h]
  exact Finset.sum_range (fun s' => tileSum A B (32 * c + s'))

/-- The two half sums add up to the sum over all 16384 points of the first cloud of their distance to the second. -/
theorem row_total (A B : Pts.Idx → EReal) :
    ∑ c : Fin 2, sumAcc A B (32 * c.val + 31) = ∑ i : Fin 16384, rowTerm A B i := by
  have h1 : ∑ i : Fin 16384, rowTerm A B i = ∑ t : Fin 64, tileSum A B t.val := by
    rw [Cert.BlockSumN.sum_blocks_of_eq 64 256 (by norm_num) (fun i : Fin 16384 => rowTerm A B i)]
    refine Finset.sum_congr rfl fun t _ => ?_
    rw [tileSum]
    refine Finset.sum_congr rfl fun r _ => ?_
    congr 1
    apply Fin.ext
    rw [row_val t.isLt]
  have h2 : ∑ t : Fin 64, tileSum A B t.val = ∑ c : Fin 2, ∑ s : Fin 32, tileSum A B (c.val * 32 + s.val) :=
    Cert.BlockSumN.sum_blocks_of_eq 2 32 (by norm_num) (fun t : Fin 64 => tileSum A B t.val)
  rw [h1, h2]
  refine Finset.sum_congr rfl fun c _ => ?_
  rw [sumAcc_block]
  refine Finset.sum_congr rfl fun s _ => ?_
  rw [Nat.mul_comm]

/-! ## The two sums of the loss, with the minimum folded over the roots -/

/-- Folding `min` over the roots of the squared distances to point `m`, summed over `m`. -/
theorem sum_fold_min_sqrt_col (A B : Pts.Idx → EReal) :
    (∑ m : Fin 16384, (Finset.univ : Finset (Fin 16384)).fold min (Ideal.ofBits .f32 0x7F800000#32)
      (fun i => Ideal.sqrt (sq A B i m))) = ∑ m, colTerm A B m :=
  Finset.sum_congr rfl fun m _ => fold_min_sqrt Finset.univ fun i => sq A B i m

/-- Folding `min` over the roots of the squared distances from point `i`, summed over `i`. -/
theorem sum_fold_min_sqrt_row (A B : Pts.Idx → EReal) :
    (∑ i : Fin 16384, (Finset.univ : Finset (Fin 16384)).fold min (Ideal.ofBits .f32 0x7F800000#32)
      (fun m => Ideal.sqrt (sq A B i m))) = ∑ i, rowTerm A B i :=
  Finset.sum_congr rfl fun i _ => fold_min_sqrt Finset.univ fun m => sq A B i m

end Cert.Chamfer

end
-- ==== Proof.KernelValue.lean ====
/-
  The scalar the blocked program ends with is the loss of the two clouds.

  After all 64 visits the two result arrays hold, for each of the two runs of 32 blocks, the run's final column minima
  and the run's final sum. The closing host operations take, for each point of the second cloud, the smaller of the two
  runs' minima, its root, and the mean over the second cloud; and the sum of the two runs' sums divided by the number of
  points. The minimum over the two runs of the running minima is the minimum over the whole first cloud, and the two runs'
  sums add up to the sum over the whole first cloud: so the scalar is the loss.
-/
import proofs.«105436_j49864570306616_2_alg».proof.Proof.KernelVisits
import proofs.«105436_j49864570306616_2_alg».proof.Proof.KernelFlush
import proofs.«105436_j49864570306616_2_alg».proof.Proof.KernelTail
import proofs.«105436_j49864570306616_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Chamfer Cert.KernelIdeal.Blocks

variable (m : (ℓ : Loc nD τ sig) → Buf (Elt Ideal) ℓ) (c : Dev nD)

/-- The array of per-run column minima after all visits: run `cc` (blocks 32 cc … 32 cc + 31) leaves its running minima. -/
theorem arr3_at (cc : Fin 2) (mm : Fin 16384) :
    (dats m 0 c).arrAt 3 cfg0.N (ix3 cc (0 : Fin 1) mm) = colAcc (cloudA m c) (cloudB m c) (32 * cc.val + 31) mm :=
  Cert.KernelIdeal.Flush.arr3_eq m c (fun cc mm => colAcc (cloudA m c) (cloudB m c) (32 * cc.val + 31) mm) (fun t h31 mm => by
    refine (Cert.KernelIdeal.Visits.out3_last m c t h31 0 0 mm).trans ?_
    show colAcc (cloudA m c) (cloudB m c) t.val mm = colAcc (cloudA m c) (cloudB m c) (32 * (t.val / 32) + 31) mm
    rw [show 32 * (t.val / 32) + 31 = t.val by omega]) cc mm

/-- The array of per-run sums after all visits. -/
theorem arr4_at (cc : Fin 2) :
    (dats m 0 c).arrAt 4 cfg0.N (ix3 cc (0 : Fin 1) (0 : Fin 1)) = sumAcc (cloudA m c) (cloudB m c) (32 * cc.val + 31) :=
  Cert.KernelIdeal.Flush.arr4_eq m c (fun cc => sumAcc (cloudA m c) (cloudB m c) (32 * cc.val + 31)) (fun t h31 => by
    refine (Cert.KernelIdeal.Visits.out4_last m c t h31 0 0 0).trans ?_
    show sumAcc (cloudA m c) (cloudB m c) t.val = sumAcc (cloudA m c) (cloudB m c) (32 * (t.val / 32) + 31)
    rw [show 32 * (t.val / 32) + 31 = t.val by omega]) cc

/-- The scalar the program ends with is the loss of the two clouds. -/
theorem tail_value :
    Cert.KernelIdeal.Tail.tail ((dats m 0 c).arrAt 3 cfg0.N) ((dats m 0 c).arrAt 4 cfg0.N) = fun _ => loss (cloudA m c) (cloudB m c) := by
  funext i
  rw [ValueIdx.eq_ix0 i]
  refine (Cert.KernelIdeal.Tail.tail_apply _ _).trans ?_
  unfold loss colTerm
  simp only [arr3_at m c, arr4_at m c, col_total, row_total]

end Cert.KernelIdeal.Result
end
-- ==== Proof.RefSide.lean ====
/-
  The reference program read as one expression over the extended reals.

  The reference computes, for every pair (i, m), the clamped squared distance between point i of the first cloud and
  point m of the second (row norms broadcast along both axes, minus twice the matrix of inner products, clamped below at
  zero), takes its square root, then the minimum down each column and along each row (each from +∞), sums the two
  vectors of minima from zero, divides each sum by 16384 and adds. Here each of those steps is read at an index, and the
  scalar result is stated as refLoss: the two means of minima of roots.
-/
import proofs.«105436_j49864570306616_2_alg».proof.Proof.Gen.ReferenceIdeal.Read
import proofs.«105436_j49864570306616_2_alg».proof.Proof.Spec
import proofs.«105436_j49864570306616_2_alg».proof.Proof.LibSumIdx1
import Idealize.ShloMosaic.Lib.ValueIdx
import Idealize.ShloMosaic.PureOps.Ideal.Laws

noncomputable section

namespace Cert.Chamfer.Ref

open Cert.ReferenceIdeal Cert.ReferenceIdeal.Gen Cert.ReferenceIdeal.Read Idealize.ShloMosaic Idealize.ShloMosaic.ValueIdx
  Cert.Chamfer

/-- The contents of one argument: a 16384 × 3 array of extended reals. -/
abbrev Buf : Type := (⟨S16384x3, .f32⟩ : BufTy).Contents (Elt Ideal)

/-- The reference's value with the square roots still inside the minima. -/
def refLoss (A B : Pts.Idx → EReal) : EReal :=
  Ideal.div (∑ m : Fin 16384, (Finset.univ : Finset (Fin 16384)).fold min (Ideal.ofBits .f32 0x7F800000#32)
      (fun i => Ideal.sqrt (sq A B i m))) (Ideal.ofBits .f32 0x46800000#32)
    + Ideal.div (∑ i : Fin 16384, (Finset.univ : Finset (Fin 16384)).fold min (Ideal.ofBits .f32 0x7F800000#32)
      (fun m => Ideal.sqrt (sq A B i m))) (Ideal.ofBits .f32 0x46800000#32)

/-! ## The index maps of the layout operations, at explicit coordinates -/

theorem idx_v1 (i : Fin 16384) (k : Fin 3) : idx_main_v1 (ix1 i) k = ix2 i k :=
  funext fun a => Fin.ext (by match a with | ⟨0, _⟩ => rfl | ⟨1, _⟩ => rfl)

theorem idx_v3 (i : Fin 16384) (k : Fin 3) : idx_main_v3 (ix1 i) k = ix2 i k :=
  funext fun a => Fin.ext (by match a with | ⟨0, _⟩ => rfl | ⟨1, _⟩ => rfl)

theorem idx_v4_v6 (i m : Fin 16384) : idx_main_v4 (idx_main_v6 (ix2 i m)) = ix1 i :=
  funext fun a => Fin.ext (by match a with | ⟨0, _⟩ => rfl)

theorem idx_v5_v7 (i m : Fin 16384) : idx_main_v5 (idx_main_v7 (ix2 i m)) = ix1 m :=
  funext fun a => Fin.ext (by match a with | ⟨0, _⟩ => rfl)

theorem lidx_v10 (i m : Fin 16384) (k : Fin 3) : lidx_main_v10 (ix2 i m) k = ix2 i k :=
  funext fun a => Fin.ext (by match a with | ⟨0, _⟩ => rfl | ⟨1, _⟩ => rfl)

theorem idx_v9_ridx_v10 (i m : Fin 16384) (k : Fin 3) : idx_main_v9 (ridx_main_v10 (ix2 i m) k) = ix2 m k :=
  funext fun a => Fin.ext (by match a with | ⟨0, _⟩ => rfl | ⟨1, _⟩ => rfl)

/-! ## The entries -/

/-- The squared norm of point i of the first cloud. -/
theorem v1_at (A : Buf) (i : Fin 16384) :
    val_main_v1 (F := Ideal) A (ix1 i) = ∑ k : Fin 3, A (ix2 i k) * A (ix2 i k) := by
  rw [val_main_v1_apply, val_main_cst_apply, Ideal.ofBits_def, Ideal.ofBits_zero_f32, zero_add]
  refine Finset.sum_congr rfl fun k _ => ?_
  rw [val_main_v0_apply, idx_v1, Ideal.mulf_def]

/-- The squared norm of point m of the second cloud. -/
theorem v3_at (B : Buf) (m : Fin 16384) :
    val_main_v3 (F := Ideal) B (ix1 m) = ∑ k : Fin 3, B (ix2 m k) * B (ix2 m k) := by
  rw [val_main_v3_apply, val_main_cst_0_apply, Ideal.ofBits_def, Ideal.ofBits_zero_f32, zero_add]
  refine Finset.sum_congr rfl fun k _ => ?_
  rw [val_main_v2_apply, idx_v3, Ideal.mulf_def]

/-- The inner product of point i of the first cloud and point m of the second. -/
theorem v10_at (A B : Buf) (i m : Fin 16384) :
    val_main_v10 (F := Ideal) A B (ix2 i m) = ∑ k : Fin 3, A (ix2 i k) * B (ix2 m k) := by
  rw [val_main_v10_apply]
  refine Finset.sum_congr rfl fun k _ => ?_
  rw [val_main_v9_apply, lidx_v10, idx_v9_ridx_v10]

/-- The matrix of distances: entry (i, m) is the root of the clamped squared distance. -/
theorem v16_at (A B : Buf) (i m : Fin 16384) :
    val_main_v16 (F := Ideal) A B (ix2 i m) = Ideal.sqrt (sq A B i m) := by
  rw [val_main_v16_apply, val_main_v15_apply, val_main_v13_apply, val_main_v8_apply, val_main_v12_apply,
    val_main_v6_apply, val_main_v7_apply, val_main_v4_apply, val_main_v5_apply, val_main_v14_apply,
    val_main_cst_2_apply, val_main_v11_apply, val_main_cst_1_apply, idx_v4_v6, idx_v5_v7, v1_at, v3_at, v10_at]
  simp only [Ideal.hostUnary_sqrt_def, Ideal.maximumf_def, Ideal.subf_def, Ideal.addf_def, Ideal.mulf_def,
    Ideal.ofBits_def, Ideal.ofBits_zero_f32]
  rfl

/-! ## The two minima -/

/-- The shape facts that name the index put back on the reduced axis. -/
theorem reduces_d0 : S16384x16384.Reduces [0] S16384 := by decide
theorem reduces_d1 : S16384x16384.Reduces [1] S16384 := by decide

/-- Column m with row i put back is (i, m). -/
theorem lift_d0 (m i : Fin 16384) : reduces_d0.lift (ix1 m) i = ix2 i m :=
  funext fun a => Fin.ext (by match a with | ⟨0, _⟩ => rfl | ⟨1, _⟩ => rfl)

/-- Row i with column m put back is (i, m). -/
theorem lift_d1 (i m : Fin 16384) : reduces_d1.lift (ix1 i) m = ix2 i m :=
  funext fun a => Fin.ext (by match a with | ⟨0, _⟩ => rfl | ⟨1, _⟩ => rfl)

/-- Down column m, from +∞: the smallest distance from point m of the second cloud to a point of the first. -/
theorem v17_at (A B : Buf) (m : Fin 16384) :
    val_main_v17 (F := Ideal) A B (ix1 m)
      = (Finset.univ : Finset (Fin 16384)).fold min (Ideal.ofBits .f32 0x7F800000#32)
          (fun i => Ideal.sqrt (sq A B i m)) := by
  unfold val_main_v17
  refine (Host.reduce_eq_fold_single (FloatOps.minimumf (F := Ideal) (φ := .f32)) (val_main_v16 (F := Ideal) A B)
    (val_main_cst_3 (F := Ideal)) reducesTo_S16384x16384_S16384_d0 reduces_d0 h_S_ (ix1 m)).trans ?_
  refine congrArg (fun f => Finset.fold min (Ideal.ofBits .f32 0x7F800000#32) f (Finset.univ : Finset (Fin 16384))) ?_
  funext i
  exact (congrArg (val_main_v16 (F := Ideal) A B) (lift_d0 m i)).trans (v16_at A B i m)

/-- Along row i, from +∞: the smallest distance from point i of the first cloud to a point of the second. -/
theorem v20_at (A B : Buf) (i : Fin 16384) :
    val_main_v20 (F := Ideal) A B (ix1 i)
      = (Finset.univ : Finset (Fin 16384)).fold min (Ideal.ofBits .f32 0x7F800000#32)
          (fun m => Ideal.sqrt (sq A B i m)) := by
  unfold val_main_v20
  refine (Host.reduce_eq_fold_single (FloatOps.minimumf (F := Ideal) (φ := .f32)) (val_main_v16 (F := Ideal) A B)
    (val_main_cst_6 (F := Ideal)) reducesTo_S16384x16384_S16384_d1 reduces_d1 h_S_ (ix1 i)).trans ?_
  refine congrArg (fun f => Finset.fold min (Ideal.ofBits .f32 0x7F800000#32) f (Finset.univ : Finset (Fin 16384))) ?_
  funext m
  exact (congrArg (val_main_v16 (F := Ideal) A B) (lift_d1 i m)).trans (v16_at A B i m)

/-! ## The two sums and the scalar -/

/-- The sum, from zero, of the column minima. -/
theorem v18_at (A B : Buf) :
    val_main_v18 (F := Ideal) A B ix0
      = ∑ m : Fin 16384, (Finset.univ : Finset (Fin 16384)).fold min (Ideal.ofBits .f32 0x7F800000#32)
          (fun i => Ideal.sqrt (sq A B i m)) := by
  rw [val_main_v18_apply, val_main_cst_4_apply, Ideal.ofBits_def, Ideal.ofBits_zero_f32, zero_add]
  refine (Cert.LibSumIdx1.sum_idx1 (n := 16384) (val_main_v17 (F := Ideal) A B)).trans ?_
  exact Finset.sum_congr rfl fun m _ => v17_at A B m

/-- The sum, from zero, of the row minima. -/
theorem v21_at (A B : Buf) :
    val_main_v21 (F := Ideal) A B ix0
      = ∑ i : Fin 16384, (Finset.univ : Finset (Fin 16384)).fold min (Ideal.ofBits .f32 0x7F800000#32)
          (fun m => Ideal.sqrt (sq A B i m)) := by
  rw [val_main_v21_apply, val_main_cst_7_apply, Ideal.ofBits_def, Ideal.ofBits_zero_f32, zero_add]
  refine (Cert.LibSumIdx1.sum_idx1 (n := 16384) (val_main_v20 (F := Ideal) A B)).trans ?_
  exact Finset.sum_congr rfl fun i _ => v20_at A B i

/-- The reference's scalar result is refLoss of its two arguments. -/
theorem ref_value (A B : Buf) : val_main_v23 (F := Ideal) A B ix0 = refLoss A B := by
  rw [val_main_v23_apply, val_main_v19_apply, val_main_v22_apply, val_main_cst_5_apply, val_main_cst_8_apply,
    v18_at, v21_at]
  rfl

end Cert.Chamfer.Ref

end
-- ==== Proof.RefLoss.lean ====
/-
  The reference's value is the loss.

  The reference takes the square root of every clamped squared distance and then the minima; the loss takes the minima
  of the clamped squared distances and then the square root. The root is monotone on the whole extended line and fixes
  +∞, so a fold of min from +∞ over the roots is the root of the smallest value: term by term the two means agree.
-/
import proofs.«105436_j49864570306616_2_alg».proof.Proof.RefSide
import proofs.«105436_j49864570306616_2_alg».proof.Proof.MinSqrt

noncomputable section

namespace Cert.Chamfer.Ref

open Cert.ReferenceIdeal.Read Idealize.ShloMosaic Idealize.ShloMosaic.ValueIdx Cert.Chamfer

/-- The two means of minima of roots are the two means of roots of minima. -/
theorem refLoss_eq_loss (A B : Pts.Idx → EReal) : refLoss A B = loss A B := by
  unfold refLoss loss colTerm rowTerm
  simp only [fold_min_sqrt]

/-- The reference's scalar result is the loss of its two arguments. -/
theorem ref_value_loss (A B : Buf) : val_main_v23 (F := Ideal) A B ix0 = loss A B :=
  (ref_value A B).trans (refLoss_eq_loss A B)

end Cert.Chamfer.Ref

end
-- ==== Proof.lean ====
/-
  The Chamfer distance between two clouds of 16384 points in 3-space: a row-blocked evaluation against the direct formula.

  Both programs expand the squared distance between a point p of the first cloud and a point q of the second as
  |p|² + |q|² − 2 p·q and clamp it below at zero. The reference takes the root of every entry of the full 16384 × 16384
  matrix, then the column minima and the row minima, and adds the two means. The blocked program visits the first cloud
  in 64 blocks of 256 points, in two runs of 32 blocks; it keeps the squared distances, carries the running column minima
  and the running sum of the roots of the row minima, and takes the root of a column minimum only once, at the end.

  Over the extended reals the two results are the same number, for every input (no finiteness is used): the root is
  monotone on the whole extended line, so it commutes with every minimum; a minimum taken block by block and run by run
  is the minimum over all points; a sum taken block by block and run by run is the sum over all points; the remaining
  operations are the same on both sides. The frames of the two blocked programs are the generated ones; the reference's
  frame is its generated run with the result dropped; the idealization rewrote nothing.
-/
import proofs.«105436_j49864570306616_2_alg».proof.Defs
import proofs.«105436_j49864570306616_2_alg».proof.Proof.Gen.Kernel
import proofs.«105436_j49864570306616_2_alg».proof.Proof.Gen.Kernel.Skeleton
import proofs.«105436_j49864570306616_2_alg».proof.Proof.Gen.Kernel.Launch
import proofs.«105436_j49864570306616_2_alg».proof.Proof.Gen.Kernel.Points
import proofs.«105436_j49864570306616_2_alg».proof.Proof.Gen.Kernel.Frame
import proofs.«105436_j49864570306616_2_alg».proof.Proof.Gen.KernelIdeal
import proofs.«105436_j49864570306616_2_alg».proof.Proof.Gen.KernelIdeal.Skeleton
import proofs.«105436_j49864570306616_2_alg».proof.Proof.Gen.KernelIdeal.Launch
import proofs.«105436_j49864570306616_2_alg».proof.Proof.Gen.KernelIdeal.Points
import proofs.«105436_j49864570306616_2_alg».proof.Proof.Gen.KernelIdeal.Frame
import proofs.«105436_j49864570306616_2_alg».proof.Proof.Gen.ReferenceIdeal
import proofs.«105436_j49864570306616_2_alg».proof.Proof.Gen.Pre_finite_inputs
import proofs.«105436_j49864570306616_2_alg».proof.Proof.Gen.ReferenceIdeal.Run
import proofs.«105436_j49864570306616_2_alg».proof.Proof.Gen.ReferenceIdeal.Read
import proofs.«105436_j49864570306616_2_alg».proof.Proof.KernelRun
import proofs.«105436_j49864570306616_2_alg».proof.Proof.KernelValue
import proofs.«105436_j49864570306616_2_alg».proof.Proof.RefLoss
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two clouds, both programs end with the loss of the two clouds. -/
theorem algebraic : Cert.algebraic_KernelIdeal_ReferenceIdeal := by
  intro m ρ m' ρ' _ hagree
  refine ⟨fun c => fun _ => Cert.Chamfer.loss (Cert.KernelIdeal.Blocks.cloudA m c) (Cert.KernelIdeal.Blocks.cloudB m c), ?_, ?_⟩
  · exact (θ_run Cert.KernelIdeal.defs _ _).mono
      (fun _ h c => ⟨(h c).1.trans (Cert.KernelIdeal.Result.tail_value m c), (h c).2⟩)
      (Cert.KernelIdeal.Run.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, (hagree c).1, (hagree c).2]
    funext i
    rw [ValueIdx.eq_ix0 i]
    exact Cert.Chamfer.Ref.ref_value_loss _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
